-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1000000x64 : Shape := ⟨2, ![1000000, 64]⟩
abbrev S1x64 : Shape := ⟨2, ![1, 64]⟩
abbrev S100000x32 : Shape := ⟨2, ![100000, 32]⟩
abbrev S5000x32 : Shape := ⟨2, ![5000, 32]⟩
abbrev S1000000x32 : Shape := ⟨2, ![1000000, 32]⟩
abbrev S1x32 : Shape := ⟨2, ![1, 32]⟩

abbrev nBuf : Space → Nat
  | .hbm => 52
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S1x64, .f32⟩
  | .hbm, ⟨36, _⟩ => ⟨S100000x32, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x32, .f32⟩
  | .hbm, ⟨46, _⟩ => ⟨S_, .f32⟩
  | .hbm, ⟨47, _⟩ => ⟨S100000x32, .f32⟩
  | .hbm, ⟨48, _⟩ => ⟨S1000000x1, .i32⟩
  | .hbm, ⟨49, _⟩ => ⟨S100000x32, .f32⟩
  | .hbm, ⟨50, _⟩ => ⟨S1x32, .f32⟩
  | .hbm, ⟨51, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x1, .f32⟩
  | .local _ .vmem, ⟨22, _⟩ => ⟨S5000x1, .f32⟩
  | .local _ .vmem, ⟨23, _⟩ => ⟨S1x32, .f32⟩
  | .local _ .vmem, ⟨24, _⟩ => ⟨S5000x32, .f32⟩
  | .local _ .vmem, ⟨25, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1000000x1_S1000000_n_0_0_1_wf : ScatterDims.WF S100000 S1000000x1 S1000000 [] [0] [0] 1
  dot_S5000x128_S128x64_S5000x64_1_0_0_1_n_n_wf : DotDims.WF S5000x128 S128x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x32_S5000x32_1_0_0_1_n_n_wf : DotDims.WF S5000x64 S64x32 S5000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S100000x64 : Shape := ⟨2, ![100000, 64]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S100000x32 : Shape := ⟨2, ![100000, 32]⟩
abbrev S1000000x32 : Shape := ⟨2, ![1000000, 32]⟩
abbrev S1x32 : Shape := ⟨2, ![1, 32]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S100000x64, .f32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S100000, .f32⟩
  | .hbm, ⟨15, _⟩ => ⟨S1000000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x1, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S_, .f32⟩
  | .hbm, ⟨69, _⟩ => ⟨S1000000, .f32⟩
  | .hbm, ⟨70, _⟩ => ⟨S_, .f32⟩
  | .hbm, ⟨71, _⟩ => ⟨S100000, .f32⟩
  | .hbm, ⟨72, _⟩ => ⟨S1000000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1000000, .f32⟩
  | .hbm, ⟨87, _⟩ => ⟨S_, .i32⟩
  | .hbm, ⟨88, _⟩ => ⟨S1000000, .i32⟩
  | .hbm, ⟨89, _⟩ => ⟨S1000000, .i1⟩
  | .hbm, ⟨90, _⟩ => ⟨S_, .i32⟩
  | .hbm, ⟨91, _⟩ => ⟨S1000000, .i32⟩
  | .hbm, ⟨92, _⟩ => ⟨S1000000, .i32⟩
  | .hbm, ⟨93, _⟩ => ⟨S1000000, .i32⟩
  | .hbm, ⟨94, _⟩ => ⟨S1000000x1, .i32⟩
  | .hbm, ⟨95, _⟩ => ⟨S1000000, .f32⟩
  | .hbm, ⟨96, _⟩ => ⟨S1000000, .f32⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .i32⟩
  | .hbm, ⟨101, _⟩ => ⟨S1000000, .i32⟩
  | .hbm, ⟨102, _⟩ => ⟨S1000000, .i32⟩
  | .hbm, ⟨103, _⟩ => ⟨S1000000, .i32⟩
  | .hbm, ⟨104, _⟩ => ⟨S1000000x1, .i32⟩
  | .hbm, ⟨105, _⟩ => ⟨S1000000x32, .f32⟩
  | .hbm, ⟨106, _⟩ => ⟨S1000000x1, .f32⟩
  | .hbm, ⟨107, _⟩ => ⟨S1000000x32, .f32⟩
  | .hbm, ⟨108, _⟩ => ⟨S1000000x32, .f32⟩
  | .hbm, ⟨109, _⟩ => ⟨S_, .f32⟩
  | .hbm, ⟨110, _⟩ => ⟨S100000x32, .f32⟩
  | .hbm, ⟨111, _⟩ => ⟨S1000000x1, .i32⟩
  | .hbm, ⟨112, _⟩ => ⟨S100000x32, .f32⟩
  | .hbm, ⟨113, _⟩ => ⟨S100000, .f32⟩
  | .hbm, ⟨114, _⟩ => ⟨S100000x1, .f32⟩
  | .hbm, ⟨115, _⟩ => ⟨S100000x32, .f32⟩
  | .hbm, ⟨116, _⟩ => ⟨S100000x32, .f32⟩
  | .hbm, ⟨117, _⟩ => ⟨S100000x32, .f32⟩
  | .hbm, ⟨118, _⟩ => ⟨S1x32, .f32⟩
  | .hbm, ⟨119, _⟩ => ⟨S100000x32, .f32⟩
  | .hbm, ⟨120, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x32_S100000x32_1_0_0_1_n_n_wf : DotDims.WF S100000x64 S64x32 S100000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf

class Facts : Prop extends Facts₀ where

variable [Facts]
-- ==== Proof.KernelNamed.lean ====
/-
  The idealized kernel's run with its result buffer named.  The program is three grid launches among stretches of
  host operations; the generated frame follows the contents of every unscoped buffer from the launch memory
  through the six segments (`Gen.W0` … `Gen.W6`) and ends with every such buffer at `Gen.W6`.  Its stated post
  keeps only the argument arrays; here the same launch is read once more with the result buffer `main_v36` kept
  too: after the run it holds `Gen.W6 m ρ c main_v36`, the array the third launch's write-backs leave.
-/
import proofs.«133190_j29600914604111_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, with the result buffer at the
    last boundary's contents and the six arguments as launched. -/
theorem run_named : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.KernelCombine.lean ====
/-
  The third launch (the final combine) as one function of the arrays it finds.  Its grid has twenty points; point t
  stages rows 5000·t … 5000·t + 4999 of the aggregated array, of the scaled features and of the one-column
  normaliser, and the whole one-row bias, and writes back the same rows of the result.  The body is elementwise:
  (agg + g) · dinv + b, the normaliser's column broadcast along a row and the bias's row broadcast down the rows.
  So the result array ends holding, at (i, c), (agg[i,c] + g[i,c]) · dinv[i,0] + b[0,c].
-/
import proofs.«133190_j29600914604111_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A one-column array broadcast along its rows reads, at (p, q), the column's entry of row p. -/
theorem bcast_col {a b : ℕ} {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at row p, column q of the block. -/
theorem pay_apply (x0 x1 : Vec Ideal S5000x32 .f32) (x2 : Vec Ideal S5000x1 .f32) (x3 : Vec Ideal S1x32 .f32) (p : Fin 5000) (q : Fin 32) :
    k2_pay1 x0 x1 x2 x3 (ix2 p q) = (x0 (ix2 p q) + x1 (ix2 p q)) * x2 (ix2 p (0 : Fin 1)) + x3 (ix2 (0 : Fin 1) q) := by
  unfold k2_pay1
  simp only [shapeCast_self]
  rw [addf_apply, mulf_apply, addf_apply, bcast_col, broadcastTo_1b_ab_apply]

/-- The result array as one function of the four arrays the launch reads. -/
def G (A0 A1 : S100000x32.Idx → EReal) (A2 : S100000x1.Idx → EReal) (A3 : S1x32.Idx → EReal) : S100000x32.Idx → EReal :=
  fun s => (A0 s + A1 s) * A2 (ix2 (⟨(s 0).val, idx2_lt0 s⟩ : Fin 100000) (0 : Fin 1)) + A3 (ix2 (0 : Fin 1) (⟨(s 1).val, idx2_lt1 s⟩ : Fin 32))

/-- Where each window's block sits at point t: the row windows at block row t, column block 0; the bias at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's stored value at any index of the block. -/
theorem pay_at (x0 x1 : Vec Ideal S5000x32 .f32) (x2 : Vec Ideal S5000x1 .f32) (x3 : Vec Ideal S1x32 .f32) (j : S5000x32.Idx) :
    k2_pay1 x0 x1 x2 x3 j = (x0 j + x1 j) * x2 (ix2 (⟨(j 0).val, idx2_lt0 j⟩ : Fin 5000) (0 : Fin 1))
      + x3 (ix2 (0 : Fin 1) (⟨(j 1).val, idx2_lt1 j⟩ : Fin 32)) := by
  obtain ⟨p, q, rfl⟩ : ∃ (p : Fin 5000) (q : Fin 32), j = ix2 p q := ⟨j 0, j 1, eq_ix2 j⟩
  exact pay_apply x0 x1 x2 x3 p q

/-- Window 0's block at point t is rows 5000·t … of the aggregated array. -/
theorem blk0_apply (c : Dev nD) (t : Fin cfg2.N) (x : S5000x32.Idx) (k : S100000x32.Idx)
    (hk0 : (k 0).val = 5000 * t.val + (x 0).val) (hk1 : (k 1).val = (x 1).val) :
    (iblk2 V c 0 t : Vec Ideal S5000x32 .f32) x = (V c main_v34 : S100000x32.Idx → Elt Ideal .f32) k := by
  obtain ⟨e0, e1, -⟩ := idx_facts t
  unfold iblk2
  rw [View.read_apply]
  show V c main_v34 _ = V c main_v34 _
  congr 1
  funext a; apply Fin.ext
  match a with
  | ⟨0, _⟩ => show win2_0.index t 0 * 5000 + 1 * (x 0).val = (k 0).val; rw [e0, hk0]; omega
  | ⟨1, _⟩ => show win2_0.index t 1 * 32 + 1 * (x 1).val = (k 1).val; rw [e1, hk1]; omega

/-- Window 1's block at point t is the same rows of the scaled features. -/
theorem blk1_apply (c : Dev nD) (t : Fin cfg2.N) (x : S5000x32.Idx) (k : S100000x32.Idx)
    (hk0 : (k 0).val = 5000 * t.val + (x 0).val) (hk1 : (k 1).val = (x 1).val) :
    (iblk2 V c 1 t : Vec Ideal S5000x32 .f32) x = (V c main_v24 : S100000x32.Idx → Elt Ideal .f32) k := by
  obtain ⟨-, -, e0, e1, -⟩ := idx_facts t
  unfold iblk2
  rw [View.read_apply]
  show V c main_v24 _ = V c main_v24 _
  congr 1
  funext a; apply Fin.ext
  match a with
  | ⟨0, _⟩ => show win2_1.index t 0 * 5000 + 1 * (x 0).val = (k 0).val; rw [e0, hk0]; omega
  | ⟨1, _⟩ => show win2_1.index t 1 * 32 + 1 * (x 1).val = (k 1).val; rw [e1, hk1]; omega

/-- Window 2's block at point t is the same rows of the one-column normaliser. -/
theorem blk2_apply (c : Dev nD) (t : Fin cfg2.N) (x : S5000x1.Idx) (k : S100000x1.Idx)
    (hk0 : (k 0).val = 5000 * t.val + (x 0).val) (hk1 : (k 1).val = (x 1).val) :
    (iblk2 V c 2 t : Vec Ideal S5000x1 .f32) x = (V c main_v11 : S100000x1.Idx → Elt Ideal .f32) k := by
  obtain ⟨-, -, -, -, e0, e1, -⟩ := idx_facts t
  unfold iblk2
  rw [View.read_apply]
  show V c main_v11 _ = V c main_v11 _
  congr 1
  funext a; apply Fin.ext
  match a with
  | ⟨0, _⟩ => show win2_2.index t 0 * 5000 + 1 * (x 0).val = (k 0).val; rw [e0, hk0]; omega
  | ⟨1, _⟩ => show win2_2.index t 1 * 1 + 1 * (x 1).val = (k 1).val; rw [e1, hk1]; omega

/-- Window 3's block at every point is the whole one-row bias. -/
theorem blk3_apply (c : Dev nD) (t : Fin cfg2.N) (x : S1x32.Idx) (k : S1x32.Idx)
    (hk0 : (k 0).val = (x 0).val) (hk1 : (k 1).val = (x 1).val) :
    (iblk2 V c 3 t : Vec Ideal S1x32 .f32) x = (V c main_v35 : S1x32.Idx → Elt Ideal .f32) k := by
  obtain ⟨-, -, -, -, -, -, e0, e1, -⟩ := idx_facts t
  unfold iblk2
  rw [View.read_apply]
  show V c main_v35 _ = V c main_v35 _
  congr 1
  funext a; apply Fin.ext
  match a with
  | ⟨0, _⟩ => show win2_3.index t 0 * 1 + 1 * (x 0).val = (k 0).val; rw [e0, hk0]; omega
  | ⟨1, _⟩ => show win2_3.index t 1 * 32 + 1 * (x 1).val = (k 1).val; rw [e1, hk1]; omega

/-- What point t writes back is rows 5000·t … of G of the arrays the launch finds. -/
theorem flushed_eq (c : Dev nD) (t : Fin cfg2.N) :
    (dat2 V c).flushed 4 t = ((cfg2.win 4).blk t).view.read (Elt Ideal) (G (V c main_v34) (V c main_v24) (V c main_v11) (V c main_v35)) := by
  show (cfg2.win 4).cut (grid2.coords t) ((dat2 V c).after 4 t) = _
  rw [after2_4]
  unfold out2_4
  rw [View.canon_unit_zero hz]
  simp only [View.ld_unit_zero (S := S5000x32) hz, View.ld_unit_zero (S := S5000x1) hz, View.ld_unit_zero (S := S1x32) hz]
  funext j
  obtain ⟨-, -, -, -, -, -, -, -, e0, e1⟩ := idx_facts t
  show k2_pay1 (iblk2 V c 0 t) (iblk2 V c 1 t) (iblk2 V c 2 t) (iblk2 V c 3 t) j
    = G (V c main_v34) (V c main_v24) (V c main_v11) (V c main_v35) (((cfg2.win 4).blk t).view.emb j)
  refine (pay_at _ _ _ _ j).trans ?_
  have hj0 : (j 0).val < 5000 := (j 0).isLt
  have hj1 : (j 1).val < 32 := (j 1).isLt
  have m0 : ((((cfg2.win 4).blk t).view.emb j) 0).val = 5000 * t.val + (j 0).val := by
    show win2_4.index t 0 * 5000 + 1 * (j 0).val = _; rw [e0]; omega
  have m1 : ((((cfg2.win 4).blk t).view.emb j) 1).val = (j 1).val := by
    show win2_4.index t 1 * 32 + 1 * (j 1).val = _; rw [e1]; omega
  unfold G
  rw [blk0_apply V c t j _ m0 m1, blk1_apply V c t j _ m0 m1,
    blk2_apply V c t (ix2 (⟨(j 0).val, idx2_lt0 j⟩ : Fin 5000) (0 : Fin 1))
      (ix2 (⟨((((cfg2.win 4).blk t).view.emb j) 0).val, idx2_lt0 _⟩ : Fin 100000) (0 : Fin 1)) m0 rfl,
    blk3_apply V c t (ix2 (0 : Fin 1) (⟨(j 1).val, idx2_lt1 j⟩ : Fin 32))
      (ix2 (0 : Fin 1) (⟨((((cfg2.win 4).blk t).view.emb j) 1).val, idx2_lt1 _⟩ : Fin 32)) rfl m1]

/-- An index of the result array is in point t's block iff each coordinate is in the block's range. -/
theorem mem_blk (t : Fin cfg2.N) (i : S100000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v36).slice (win2_4.rect t)).set ↔ _
  rw [View.set_slice_whole, Rect.mem_set_unit]
  exact Iff.rfl

/-- Every row of the result lies in the block of the point numbered by its row divided by 5000. -/
theorem cover (i : S100000x32.Idx) : ∃ t : Fin cfg2.N, (cfg2.win 4).flush t = true ∧ i ∈ ((cfg2.win 4).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨-, -, -, -, -, -, -, -, e0, e1⟩ := idx_facts t
  refine ⟨t, flush2_4 t, ?_⟩
  rw [mem_blk]
  intro a
  have ht : t.val = (i 0).val / 5000 := rfl
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 32 ≤ (i 1).val ∧ (i 1).val < win2_4.index t (1 : Fin 2) * 32 + 32; rw [e1]; omega

/-- After the launch the result array is G of the arrays the launch found. -/
theorem final (c : Dev nD) :
    (dat2 V c).arrAt 4 cfg2.N = G (V c main_v34) (V c main_v24) (V c main_v11) (V c main_v35) :=
  (dat2 V c).arrAt_eq_of_cover 4 _ (fun t _ => flushed_eq V c t) cover

end Cert.KernelIdeal.Combine

end
-- ==== Proof.KernelPayloads.lean ====
import proofs.«133190_j29600914604111_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
  The two kernel bodies' stored blocks, read at a row and a column, at the ideal values.

  At the ideal values a change of float format is the identity and the matrix unit's product into
  a zero accumulator is the plain sum of products. So the first body stores, at row `p` and
  column `q`, `(Σ_k x[p,k] · w[k,q]) · d[p,0]`, and the second
  `(Σ_k max((a[p,k] + g[p,k]) · d[p,0] + b[0,k], 0) · w[k,q]) · d[p,0]`.
-/

set_option maxRecDepth 16384

noncomputable section

namespace Cert.KernelIdeal.Payloads

open Idealize.ShloMosaic Idealize.ShloMosaic.ValueIdx Cert.KernelIdeal Cert.KernelIdeal.Gen
open scoped BigOperators

/-- A column `[a, 1]` broadcast to `[a, b]` reads, at `(p, q)`, the operand's row `p`. -/
theorem bcast_col' {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The contraction `S5000x128 × S128x64 → S5000x64`: operand indices at an output index -/

theorem lhs0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Into the zero accumulator the matrix product at row `p`, column `q` is `Σ_k L[p,k] · R[k,q]`. -/
theorem matmul0_apply {φ₁ φ₂ : FTy} (L : FVec Ideal S5000x128 φ₁) (R : FVec Ideal S128x64 φ₂) (p : Fin 5000) (q : Fin 64) :
    FloatOps.matmul dot_S5000x128_S128x64_S5000x64_1_0_0_1_n_n none L R (constant S5000x64 .f32 0x00000000#32) (ix2 p q)
      = ∑ k : Fin 128, L (ix2 p k) * R (ix2 k q) := by
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The first body's stored block at row `p`, column `q`. -/
theorem pay0_apply (x0 : Vec Ideal S5000x128 .f32) (x1 : Vec Ideal S128x64 .f32) (x2 : Vec Ideal S5000x1 .f32) (p : Fin 5000) (q : Fin 64) :
    k0_pay1 x0 x1 x2 (ix2 p q) = (∑ k : Fin 128, x0 (ix2 p k) * x1 (ix2 k q)) * x2 (ix2 p (0 : Fin 1)) := by
  unfold k0_pay1
  simp only [shapeCast_self]
  rw [mulf_apply]
  refine congrArg₂ (· * ·) ?_ (bcast_col' x2 _ p q)
  refine (matmul0_apply _ _ p q).trans (Finset.sum_congr rfl fun k _ => ?_)
  rw [truncf_apply, truncf_apply]

/-! ### The contraction `S5000x64 × S64x32 → S5000x32`: operand indices at an output index -/

theorem lhs1_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs1_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs1_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs1_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Into the zero accumulator the matrix product at row `p`, column `q` is `Σ_k L[p,k] · R[k,q]`. -/
theorem matmul1_apply {φ₁ φ₂ : FTy} (L : FVec Ideal S5000x64 φ₁) (R : FVec Ideal S64x32 φ₂) (p : Fin 5000) (q : Fin 32) :
    FloatOps.matmul dot_S5000x64_S64x32_S5000x32_1_0_0_1_n_n none L R (constant S5000x32 .f32 0x00000000#32) (ix2 p q)
      = ∑ k : Fin 64, L (ix2 p k) * R (ix2 k q) := by
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs1_0 _ _
    | ⟨1, _⟩ => exact (lhs1_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-- The second body's stored block at row `p`, column `q`. -/
theorem pay1_apply (v0 v2 : Vec Ideal S5000x64 .f32) (v5 : Vec Ideal S5000x1 .f32) (v9 : Vec Ideal S1x64 .f32) (v16 : Vec Ideal S64x32 .f32) (v19 : Vec Ideal S5000x1 .f32) (p : Fin 5000) (q : Fin 32) :
    k1_pay1 v0 v2 v5 v9 v16 v19 (ix2 p q) = (∑ k : Fin 64, max ((v0 (ix2 p k) + v2 (ix2 p k)) * v5 (ix2 p (0 : Fin 1)) + v9 (ix2 (0 : Fin 1) k)) 0 * v16 (ix2 k q)) * v19 (ix2 p (0 : Fin 1)) := by
  unfold k1_pay1
  simp only [shapeCast_self]
  rw [mulf_apply]
  refine congrArg₂ (· * ·) ?_ (bcast_col' v19 _ p q)
  refine (matmul1_apply _ _ p q).trans (Finset.sum_congr rfl fun k _ => ?_)
  have h0 : (Scalar.ofBits .f32 0x00000000#32 : Ideal .f32) = 0 := Ideal.ofBits_zero_f32
  rw [truncf_apply, truncf_apply, maximumf_apply, addf_apply, mulf_apply, addf_apply, bcast_col',
    broadcastTo_1b_ab_apply, broadcast_apply, h0]

end Cert.KernelIdeal.Payloads
-- ==== Proof.KernelScaleMM.lean ====
/-
  The first launch (the scaled matrix product) as one function of the arrays it finds.  Its grid has twenty points;
  point t stages rows 5000·t … 5000·t + 4999 of the node features and of the one-column normaliser and the whole
  weight matrix, and writes back the same rows of the result.  At the ideal instance the rounding to bf16 is the
  identity and the matrix unit's product into a zero accumulator is the plain sum, so the result array ends holding,
  at (i, c), (Σ_k x[i,k]·w[k,c]) · dinv[i,0].
-/
import proofs.«133190_j29600914604111_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133190_j29600914604111_2_alg».proof.Proof.KernelPayloads
set_option maxRecDepth 16384

noncomputable section

open Idealize.ShloMosaic Idealize.ShloMosaic.TcCoe Idealize.SL.Sem Idealize.ShloMosaic.ValueIdx
open Idealize.ShloMosaic.Pipeline (Dat)

namespace Cert.KernelIdeal.ScaleMM

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at any index of the block. -/
theorem pay_at (x0 : Vec Ideal S5000x128 .f32) (x1 : Vec Ideal S128x64 .f32) (x2 : Vec Ideal S5000x1 .f32) (j : S5000x64.Idx) :
    k0_pay1 x0 x1 x2 j = (∑ k : Fin 128, x0 (ix2 (⟨(j 0).val, idx2_lt0 j⟩ : Fin 5000) k) * x1 (ix2 k (⟨(j 1).val, idx2_lt1 j⟩ : Fin 64)))
      * x2 (ix2 (⟨(j 0).val, idx2_lt0 j⟩ : Fin 5000) (0 : Fin 1)) := by
  obtain ⟨p, q, rfl⟩ : ∃ (p : Fin 5000) (q : Fin 64), j = ix2 p q := ⟨j 0, j 1, eq_ix2 j⟩
  exact Cert.KernelIdeal.Payloads.pay0_apply x0 x1 x2 p q

/-- The result array as one function of the three arrays the launch reads. -/
def G (X : S100000x128.Idx → EReal) (W : S128x64.Idx → EReal) (D : S100000x1.Idx → EReal) : S100000x64.Idx → EReal :=
  fun s => (∑ k : Fin 128, X (ix2 (⟨(s 0).val, idx2_lt0 s⟩ : Fin 100000) k) * W (ix2 k (⟨(s 1).val, idx2_lt1 s⟩ : Fin 64)))
    * D (ix2 (⟨(s 0).val, idx2_lt0 s⟩ : Fin 100000) (0 : Fin 1))

/-- Where each window's block sits at point t: the row windows at block row t, the weights at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point t is rows 5000·t … of the node features. -/
theorem blk0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → Elt Ideal .f32) k := by
  obtain ⟨e0, e1, -⟩ := idx_facts t
  unfold iblk0
  rw [View.read_apply]
  show V c main_arg0 _ = V c main_arg0 _
  congr 1
  funext a; apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Window 1's block at every point is the whole weight matrix. -/
theorem blk1_apply (c : Dev nD) (t : Fin cfg0.N) (x : S128x64.Idx) (k : S128x64.Idx)
    (hk0 : (k 0).val = (x 0).val) (hk1 : (k 1).val = (x 1).val) :
    (iblk0 V c 1 t : Vec Ideal S128x64 .f32) x = (V c main_arg2 : S128x64.Idx → Elt Ideal .f32) k := by
  obtain ⟨-, -, e0, e1, -⟩ := idx_facts t
  unfold iblk0
  rw [View.read_apply]
  show V c main_arg2 _ = V c main_arg2 _
  congr 1
  funext a; apply Fin.ext
  match a with
  | ⟨0, _⟩ => show win0_1.index t 0 * 128 + 1 * (x 0).val = (k 0).val; rw [e0, hk0]; omega
  | ⟨1, _⟩ => show win0_1.index t 1 * 64 + 1 * (x 1).val = (k 1).val; rw [e1, hk1]; omega

/-- Window 2's block at point t is the same rows of the one-column normaliser. -/
theorem blk2_apply (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (V c main_v11 : S100000x1.Idx → Elt Ideal .f32) k := by
  obtain ⟨-, -, -, -, e0, e1, -⟩ := idx_facts t
  unfold iblk0
  rw [View.read_apply]
  show V c main_v11 _ = V c main_v11 _
  congr 1
  funext a; apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- What point t writes back is rows 5000·t … of G of the arrays the launch finds. -/
theorem flushed_eq (c : Dev nD) (t : Fin cfg0.N) :
    (dat0 V c).flushed 3 t = ((cfg0.win 3).blk t).view.read (Elt Ideal) (G (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  funext j
  obtain ⟨-, -, -, -, -, -, e0, e1⟩ := idx_facts t
  show k0_pay1 (iblk0 V c 0 t) (iblk0 V c 1 t) (iblk0 V c 2 t) j
    = G (V c main_arg0) (V c main_arg2) (V c main_v11) (((cfg0.win 3).blk t).view.emb j)
  refine (pay_at _ _ _ j).trans ?_
  have hj0 : (j 0).val < 5000 := (j 0).isLt
  have hj1 : (j 1).val < 64 := (j 1).isLt
  have m0 : ((((cfg0.win 3).blk t).view.emb j) 0).val = 5000 * t.val + (j 0).val := by
    show win0_3.index t 0 * 5000 + 1 * (j 0).val = _; rw [e0]; omega
  have m1 : ((((cfg0.win 3).blk t).view.emb j) 1).val = (j 1).val := by
    show win0_3.index t 1 * 64 + 1 * (j 1).val = _; rw [e1]; omega
  unfold G
  rw [blk2_apply V c t (ix2 (⟨(j 0).val, idx2_lt0 j⟩ : Fin 5000) (0 : Fin 1))
      (ix2 (⟨((((cfg0.win 3).blk t).view.emb j) 0).val, idx2_lt0 _⟩ : Fin 100000) (0 : Fin 1)) m0 rfl]
  refine congrArg (· * _) (Finset.sum_congr rfl fun k _ => ?_)
  rw [blk0_apply V c t (ix2 (⟨(j 0).val, idx2_lt0 j⟩ : Fin 5000) k)
      (ix2 (⟨((((cfg0.win 3).blk t).view.emb j) 0).val, idx2_lt0 _⟩ : Fin 100000) k) m0 rfl,
    blk1_apply V c t (ix2 k (⟨(j 1).val, idx2_lt1 j⟩ : Fin 64))
      (ix2 k (⟨((((cfg0.win 3).blk t).view.emb j) 1).val, idx2_lt1 _⟩ : Fin 64)) rfl m1]

/-- An index of the result array is in point t's block iff each coordinate is in the block's range. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Every row of the result lies in the block of the point numbered by its row divided by 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, e0, e1⟩ := idx_facts t
  refine ⟨t, flush0_3 t, ?_⟩
  rw [mem_blk]
  intro a
  have ht : t.val = (i 0).val / 5000 := rfl
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-- After the launch the result array is G of the arrays the launch found. -/
theorem final (c : Dev nD) :
    (dat0 V c).arrAt 3 cfg0.N = G (V c main_arg0) (V c main_arg2) (V c main_v11) :=
  (dat0 V c).arrAt_eq_of_cover 3 _ (fun t _ => flushed_eq V c t) cover

end Cert.KernelIdeal.ScaleMM

end
-- ==== Proof.KernelFused.lean ====
/-
  The second launch (the first layer's combine fused with the second layer's scaled product) as one function of the
  arrays it finds.  Point t of its twenty stages rows 5000·t … 5000·t + 4999 of the aggregated array, of the scaled
  features and of the one-column normaliser, the whole one-row bias and the whole second weight matrix, and writes
  back the same rows of the result.  The body forms v = max((agg + g)·dinv + b, 0) elementwise and then the matrix
  product of v with the weights scaled by dinv; at the ideal instance the rounding to bf16 is the identity and the
  product into a zero accumulator is the plain sum.  So the result array ends holding, at (i, c),
  (Σ_k max((agg[i,k] + g[i,k])·dinv[i,0] + b[0,k], 0)·w[k,c]) · dinv[i,0].
-/
import proofs.«133190_j29600914604111_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133190_j29600914604111_2_alg».proof.Proof.KernelPayloads
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fused

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at any index of the block. -/
theorem pay_at (v0 v2 : Vec Ideal S5000x64 .f32) (v5 : Vec Ideal S5000x1 .f32) (v9 : Vec Ideal S1x64 .f32) (v16 : Vec Ideal S64x32 .f32) (v19 : Vec Ideal S5000x1 .f32) (j : S5000x32.Idx) :
    k1_pay1 v0 v2 v5 v9 v16 v19 j = (∑ k : Fin 64, max ((v0 (ix2 (⟨(j 0).val, idx2_lt0 j⟩ : Fin 5000) k) + v2 (ix2 (⟨(j 0).val, idx2_lt0 j⟩ : Fin 5000) k))
        * v5 (ix2 (⟨(j 0).val, idx2_lt0 j⟩ : Fin 5000) (0 : Fin 1)) + v9 (ix2 (0 : Fin 1) k)) 0 * v16 (ix2 k (⟨(j 1).val, idx2_lt1 j⟩ : Fin 32)))
      * v19 (ix2 (⟨(j 0).val, idx2_lt0 j⟩ : Fin 5000) (0 : Fin 1)) := by
  obtain ⟨p, q, rfl⟩ : ∃ (p : Fin 5000) (q : Fin 32), j = ix2 p q := ⟨j 0, j 1, eq_ix2 j⟩
  exact Cert.KernelIdeal.Payloads.pay1_apply v0 v2 v5 v9 v16 v19 p q

/-- The result array as one function of the five arrays the launch reads. -/
def G (A Gs : S100000x64.Idx → EReal) (D : S100000x1.Idx → EReal) (B : S1x64.Idx → EReal) (W : S64x32.Idx → EReal) : S100000x32.Idx → EReal :=
  fun s => (∑ k : Fin 64, max ((A (ix2 (⟨(s 0).val, idx2_lt0 s⟩ : Fin 100000) k) + Gs (ix2 (⟨(s 0).val, idx2_lt0 s⟩ : Fin 100000) k))
        * D (ix2 (⟨(s 0).val, idx2_lt0 s⟩ : Fin 100000) (0 : Fin 1)) + B (ix2 (0 : Fin 1) k)) 0 * W (ix2 k (⟨(s 1).val, idx2_lt1 s⟩ : Fin 32)))
    * D (ix2 (⟨(s 0).val, idx2_lt0 s⟩ : Fin 100000) (0 : Fin 1))

/-- Where each window's block sits at point t: the row windows at block row t, the bias and the weights at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … of the aggregated array. -/
theorem blk0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v22 : S100000x64.Idx → Elt Ideal .f32) k := by
  obtain ⟨e0, e1, -⟩ := idx_facts t
  unfold iblk1
  rw [View.read_apply]
  show V c main_v22 _ = V c main_v22 _
  congr 1
  funext a; apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- Window 1's block at point t is the same rows of the scaled features. -/
theorem blk1_apply (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v12 : S100000x64.Idx → Elt Ideal .f32) k := by
  obtain ⟨-, -, e0, e1, -⟩ := idx_facts t
  unfold iblk1
  rw [View.read_apply]
  show V c main_v12 _ = V c main_v12 _
  congr 1
  funext a; apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- Window 2's block at point t is the same rows of the one-column normaliser. -/
theorem blk2_apply (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v11 : S100000x1.Idx → Elt Ideal .f32) k := by
  obtain ⟨-, -, -, -, e0, e1, -⟩ := idx_facts t
  unfold iblk1
  rw [View.read_apply]
  show V c main_v11 _ = V c main_v11 _
  congr 1
  funext a; apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- Window 3's block at every point is the whole one-row bias. -/
theorem blk3_apply (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v23 : S1x64.Idx → Elt Ideal .f32) k := by
  obtain ⟨-, -, -, -, -, -, e0, e1, -⟩ := idx_facts t
  unfold iblk1
  rw [View.read_apply]
  show V c main_v23 _ = V c main_v23 _
  congr 1
  funext a; apply Fin.ext
  match a with
  | ⟨0, _⟩ => show win1_3.index t 0 * 1 + 1 * (x 0).val = (k 0).val; rw [e0, hk0]; omega
  | ⟨1, _⟩ => show win1_3.index t 1 * 64 + 1 * (x 1).val = (k 1).val; rw [e1, hk1]; omega

/-- Window 4's block at every point is the whole weight matrix. -/
theorem blk4_apply (c : Dev nD) (t : Fin cfg1.N) (x : S64x32.Idx) (k : S64x32.Idx)
    (hk0 : (k 0).val = (x 0).val) (hk1 : (k 1).val = (x 1).val) :
    (iblk1 V c 4 t : Vec Ideal S64x32 .f32) x = (V c main_arg4 : S64x32.Idx → Elt Ideal .f32) k := by
  obtain ⟨-, -, -, -, -, -, -, -, e0, e1, -⟩ := idx_facts t
  unfold iblk1
  rw [View.read_apply]
  show V c main_arg4 _ = V c main_arg4 _
  congr 1
  funext a; apply Fin.ext
  match a with
  | ⟨0, _⟩ => show win1_4.index t 0 * 64 + 1 * (x 0).val = (k 0).val; rw [e0, hk0]; omega
  | ⟨1, _⟩ => show win1_4.index t 1 * 32 + 1 * (x 1).val = (k 1).val; rw [e1, hk1]; omega

/-- What point t writes back is rows 5000·t … of G of the arrays the launch finds. -/
theorem flushed_eq (c : Dev nD) (t : Fin cfg1.N) :
    (dat1 V c).flushed 5 t = ((cfg1.win 5).blk t).view.read (Elt Ideal) (G (V c main_v22) (V c main_v12) (V c main_v11) (V c main_v23) (V c main_arg4)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz, View.ld_unit_zero (S := S64x32) hz]
  funext j
  obtain ⟨-, -, -, -, -, -, -, -, -, -, e0, e1⟩ := idx_facts t
  show k1_pay1 (iblk1 V c 0 t) (iblk1 V c 1 t) (iblk1 V c 2 t) (iblk1 V c 3 t) (iblk1 V c 4 t) (iblk1 V c 2 t) j
    = G (V c main_v22) (V c main_v12) (V c main_v11) (V c main_v23) (V c main_arg4) (((cfg1.win 5).blk t).view.emb j)
  refine (pay_at _ _ _ _ _ _ j).trans ?_
  have hj0 : (j 0).val < 5000 := (j 0).isLt
  have hj1 : (j 1).val < 32 := (j 1).isLt
  have m0 : ((((cfg1.win 5).blk t).view.emb j) 0).val = 5000 * t.val + (j 0).val := by
    show win1_5.index t 0 * 5000 + 1 * (j 0).val = _; rw [e0]; omega
  have m1 : ((((cfg1.win 5).blk t).view.emb j) 1).val = (j 1).val := by
    show win1_5.index t 1 * 32 + 1 * (j 1).val = _; rw [e1]; omega
  unfold G
  rw [blk2_apply V c t (ix2 (⟨(j 0).val, idx2_lt0 j⟩ : Fin 5000) (0 : Fin 1))
      (ix2 (⟨((((cfg1.win 5).blk t).view.emb j) 0).val, idx2_lt0 _⟩ : Fin 100000) (0 : Fin 1)) m0 rfl]
  refine congrArg (· * _) (Finset.sum_congr rfl fun k _ => ?_)
  rw [blk0_apply V c t (ix2 (⟨(j 0).val, idx2_lt0 j⟩ : Fin 5000) k)
      (ix2 (⟨((((cfg1.win 5).blk t).view.emb j) 0).val, idx2_lt0 _⟩ : Fin 100000) k) m0 rfl,
    blk1_apply V c t (ix2 (⟨(j 0).val, idx2_lt0 j⟩ : Fin 5000) k)
      (ix2 (⟨((((cfg1.win 5).blk t).view.emb j) 0).val, idx2_lt0 _⟩ : Fin 100000) k) m0 rfl,
    blk3_apply V c t (ix2 (0 : Fin 1) k) (ix2 (0 : Fin 1) k) rfl rfl,
    blk4_apply V c t (ix2 k (⟨(j 1).val, idx2_lt1 j⟩ : Fin 32))
      (ix2 k (⟨((((cfg1.win 5).blk t).view.emb j) 1).val, idx2_lt1 _⟩ : Fin 32)) rfl m1]

/-- An index of the result array is in point t's block iff each coordinate is in the block's range. -/
theorem mem_blk (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v24).slice (win1_5.rect t)).set ↔ _
  rw [View.set_slice_whole, Rect.mem_set_unit]
  exact Iff.rfl

/-- Every row of the result lies in the block of the point numbered by its row divided by 5000. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, -, -, -, -, -, -, e0, e1⟩ := idx_facts t
  refine ⟨t, flush1_5 t, ?_⟩
  rw [mem_blk]
  intro a
  have ht : t.val = (i 0).val / 5000 := rfl
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 32 ≤ (i 1).val ∧ (i 1).val < win1_5.index t (1 : Fin 2) * 32 + 32; rw [e1]; omega

/-- After the launch the result array is G of the arrays the launch found. -/
theorem final (c : Dev nD) :
    (dat1 V c).arrAt 5 cfg1.N = G (V c main_v22) (V c main_v12) (V c main_v11) (V c main_v23) (V c main_arg4) :=
  (dat1 V c).arrAt_eq_of_cover 5 _ (fun t _ => flushed_eq V c t) cover

end Cert.KernelIdeal.Fused

end
-- ==== Proof.KernelFold.lean ====
/-
  The idealized kernel's result as one function of the six argument arrays.  Between the three launches the host
  slices the edge list into sources and destinations, counts each node's in-degree (a scatter-add of ones), takes
  dinv = rsqrt(degree + 1), and after each of the first two launches gathers the launch's rows at the (wrapped)
  sources and scatter-adds them at the destinations.  Walking the generated fold of buffer contents backwards from
  the result buffer — a launch's output is its closed form of the arrays it found, a launch's inputs and every
  buffer it does not name are as it found them, a host stretch writes only its own results — gives the result as
  the three closed forms composed with those host operations.
-/
import proofs.«133190_j29600914604111_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«133190_j29600914604111_2_alg».proof.Proof.KernelCombine
import proofs.«133190_j29600914604111_2_alg».proof.Proof.KernelScaleMM
import proofs.«133190_j29600914604111_2_alg».proof.Proof.KernelFused
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen

open Idealize.ShloMosaic.StableHlo

/-! ## The host operations as functions -/

/-- The edges' source nodes: row 0 of the edge list. -/
def srcOf (a1 : (⟨S2x1000000, .i32⟩ : BufTy).Contents (Elt Ideal)) : (⟨S1000000, .i32⟩ : BufTy).Contents (Elt Ideal) :=
  shapeCast _ (extractStridedSlice S1x1000000 ![0, 0] a1 slices_S2x1000000_S1x1000000_0_0) shapeCasts_S1x1000000_S1000000
/-- The edges' destination nodes: row 1 of the edge list. -/
def dstOf (a1 : (⟨S2x1000000, .i32⟩ : BufTy).Contents (Elt Ideal)) : (⟨S1000000, .i32⟩ : BufTy).Contents (Elt Ideal) :=
  shapeCast _ (extractStridedSlice S1x1000000 ![1, 0] a1 slices_S2x1000000_S1x1000000_1_0) shapeCasts_S1x1000000_S1000000
/-- The normaliser as a flat array: rsqrt of (the number of edges into the node, plus one). -/
def dinvFlat (a1 : (⟨S2x1000000, .i32⟩ : BufTy).Contents (Elt Ideal)) : (⟨S100000, .f32⟩ : BufTy).Contents (Elt Ideal) :=
  Host.rsqrt (F := Ideal) (addf (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 (dstOf a1))
      (broadcastInDim S1000000 ![] bcast_S_S1000000 (constant (F := Ideal) S_ .f32 0x3F800000#32)))
    (broadcastInDim S100000 ![] bcast_S_S100000 (constant (F := Ideal) S_ .f32 0x3F800000#32)))
/-- The normaliser as the one-column array the launches stage. -/
def dinvOf (a1 : (⟨S2x1000000, .i32⟩ : BufTy).Contents (Elt Ideal)) : (⟨S100000x1, .f32⟩ : BufTy).Contents (Elt Ideal) :=
  shapeCast _ (dinvFlat a1) shapeCasts_S100000_S100000x1
/-- The gathers' start words: a negative source is wrapped by adding the number of nodes. -/
def nsrcB (s : (⟨S1000000, .i32⟩ : BufTy).Contents (Elt Ideal)) : (⟨S1000000x1, .i32⟩ : BufTy).Contents (Elt Ideal) :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)
/-- The scatters' start words: the destinations as they are. -/
def dstB (d : (⟨S1000000, .i32⟩ : BufTy).Contents (Elt Ideal)) : (⟨S1000000x1, .i32⟩ : BufTy).Contents (Elt Ideal) :=
  broadcastInDim S1000000x1 ![0] bcast_S1000000_S1000000x1_0 d
/-- Gather the rows at the sources and scatter-add them at the destinations (64 columns). -/
def agg64 (g : (⟨S100000x64, .f32⟩ : BufTy).Contents (Elt Ideal)) (s d : (⟨S1000000, .i32⟩ : BufTy).Contents (Elt Ideal)) : (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32)) (dstB d)
    (Host.gather gather_S100000x64_S1000000x1_S1000000x64_1_0_n_n_0_1_164 g (nsrcB s))
/-- Gather the rows at the sources and scatter-add them at the destinations (32 columns). -/
def agg32 (g : (⟨S100000x32, .f32⟩ : BufTy).Contents (Elt Ideal)) (s d : (⟨S1000000, .i32⟩ : BufTy).Contents (Elt Ideal)) : (⟨S100000x32, .f32⟩ : BufTy).Contents (Elt Ideal) :=
  Host.scatterAdd (F := Ideal) scatter_S100000x32_S1000000x1_S1000000x32_1_0_0_1
    (broadcastInDim S100000x32 ![] bcast_S_S100000x32 (constant (F := Ideal) S_ .f32 0x00000000#32)) (dstB d)
    (Host.gather gather_S100000x32_S1000000x1_S1000000x32_1_0_n_n_0_1_132 g (nsrcB s))

/-- The first launch's result. -/
def g1Of (a0 : (⟨S100000x128, .f32⟩ : BufTy).Contents (Elt Ideal)) (a1 : (⟨S2x1000000, .i32⟩ : BufTy).Contents (Elt Ideal)) (a2 : (⟨S128x64, .f32⟩ : BufTy).Contents (Elt Ideal)) : (⟨S100000x64, .f32⟩ : BufTy).Contents (Elt Ideal) :=
  ScaleMM.G a0 a2 (dinvOf a1)
/-- The second launch's result. -/
def g2Of (a0 : (⟨S100000x128, .f32⟩ : BufTy).Contents (Elt Ideal)) (a1 : (⟨S2x1000000, .i32⟩ : BufTy).Contents (Elt Ideal)) (a2 : (⟨S128x64, .f32⟩ : BufTy).Contents (Elt Ideal)) (a3 : (⟨S64, .f32⟩ : BufTy).Contents (Elt Ideal)) (a4 : (⟨S64x32, .f32⟩ : BufTy).Contents (Elt Ideal)) : (⟨S100000x32, .f32⟩ : BufTy).Contents (Elt Ideal) :=
  Fused.G (agg64 (g1Of a0 a1 a2) (srcOf a1) (dstOf a1)) (g1Of a0 a1 a2) (dinvOf a1) (shapeCast _ a3 shapeCasts_S64_S1x64) a4
/-- The third launch's result: the program's. -/
def outOf (a0 : (⟨S100000x128, .f32⟩ : BufTy).Contents (Elt Ideal)) (a1 : (⟨S2x1000000, .i32⟩ : BufTy).Contents (Elt Ideal)) (a2 : (⟨S128x64, .f32⟩ : BufTy).Contents (Elt Ideal)) (a3 : (⟨S64, .f32⟩ : BufTy).Contents (Elt Ideal)) (a4 : (⟨S64x32, .f32⟩ : BufTy).Contents (Elt Ideal)) (a5 : (⟨S32, .f32⟩ : BufTy).Contents (Elt Ideal)) : (⟨S100000x32, .f32⟩ : BufTy).Contents (Elt Ideal) :=
  Combine.G (agg32 (g2Of a0 a1 a2 a3 a4) (srcOf a1) (dstOf a1)) (g2Of a0 a1 a2 a3 a4) (dinvOf a1) (shapeCast _ a5 shapeCasts_S32_S1x32)

/-! ## What each host stretch writes, from any entry contents -/

section Stretches
variable (W : Valuation τ sig (Elt Ideal))

theorem s0_v1 : StableHlo.after hostOps0 W (Proc.devRef .tc main_v1) = srcOf (W (Proc.devRef .tc main_arg1)) := by
  after_results; rfl
theorem s0_v3 : StableHlo.after hostOps0 W (Proc.devRef .tc main_v3) = dstOf (W (Proc.devRef .tc main_arg1)) := by
  after_results; rfl
theorem s0_v11 : StableHlo.after hostOps0 W (Proc.devRef .tc main_v11) = dinvOf (W (Proc.devRef .tc main_arg1)) := by
  after_results; rfl
theorem s1_v22 : StableHlo.after hostOps1 W (Proc.devRef .tc main_v22)
    = agg64 (W (Proc.devRef .tc main_v12)) (W (Proc.devRef .tc main_v1)) (W (Proc.devRef .tc main_v3)) := by
  after_results; rfl
theorem s1_v23 : StableHlo.after hostOps1 W (Proc.devRef .tc main_v23) = shapeCast _ (W (Proc.devRef .tc main_arg3)) shapeCasts_S64_S1x64 := by
  after_results; rfl
theorem s2_v34 : StableHlo.after hostOps2 W (Proc.devRef .tc main_v34)
    = agg32 (W (Proc.devRef .tc main_v24)) (W (Proc.devRef .tc main_v1)) (W (Proc.devRef .tc main_v3)) := by
  after_results; rfl
theorem s2_v35 : StableHlo.after hostOps2 W (Proc.devRef .tc main_v35) = shapeCast _ (W (Proc.devRef .tc main_arg5)) shapeCasts_S32_S1x32 := by
  after_results; rfl

end Stretches

/-! ## The walk back through the fold -/

section Walk
variable (m : (ℓ : Loc nD τ sig) → Buf (Elt Ideal) ℓ) (ρ : Dev nD → PrngReg)

/-! ### After the first host stretch -/
theorem w1_arg0 (c : Dev nD) : W1 m ρ c (Proc.devRef .tc main_arg0) = (m ((c : Thread nD τ).loc main_arg0)) :=
  (show StableHlo.after hostOps0 (W0 m ρ c) (Proc.devRef .tc main_arg0) = W0 m ρ c (Proc.devRef .tc main_arg0) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg2 (c : Dev nD) : W1 m ρ c (Proc.devRef .tc main_arg2) = (m ((c : Thread nD τ).loc main_arg2)) :=
  (show StableHlo.after hostOps0 (W0 m ρ c) (Proc.devRef .tc main_arg2) = W0 m ρ c (Proc.devRef .tc main_arg2) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg3 (c : Dev nD) : W1 m ρ c (Proc.devRef .tc main_arg3) = (m ((c : Thread nD τ).loc main_arg3)) :=
  (show StableHlo.after hostOps0 (W0 m ρ c) (Proc.devRef .tc main_arg3) = W0 m ρ c (Proc.devRef .tc main_arg3) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg4 (c : Dev nD) : W1 m ρ c (Proc.devRef .tc main_arg4) = (m ((c : Thread nD τ).loc main_arg4)) :=
  (show StableHlo.after hostOps0 (W0 m ρ c) (Proc.devRef .tc main_arg4) = W0 m ρ c (Proc.devRef .tc main_arg4) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_arg5 (c : Dev nD) : W1 m ρ c (Proc.devRef .tc main_arg5) = (m ((c : Thread nD τ).loc main_arg5)) :=
  (show StableHlo.after hostOps0 (W0 m ρ c) (Proc.devRef .tc main_arg5) = W0 m ρ c (Proc.devRef .tc main_arg5) from StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem w1_v1 (c : Dev nD) : W1 m ρ c (Proc.devRef .tc main_v1) = srcOf (m ((c : Thread nD τ).loc main_arg1)) := s0_v1 (W0 m ρ c)
theorem w1_v3 (c : Dev nD) : W1 m ρ c (Proc.devRef .tc main_v3) = dstOf (m ((c : Thread nD τ).loc main_arg1)) := s0_v3 (W0 m ρ c)
theorem w1_v11 (c : Dev nD) : W1 m ρ c (Proc.devRef .tc main_v11) = dinvOf (m ((c : Thread nD τ).loc main_arg1)) := s0_v11 (W0 m ρ c)

/-! ### After the first launch -/
theorem w2_v12 (c : Dev nD) : W2 m ρ c (Proc.devRef .tc main_v12) = g1Of (m ((c : Thread nD τ).loc main_arg0)) (m ((c : Thread nD τ).loc main_arg1)) (m ((c : Thread nD τ).loc main_arg2)) := by
  refine (W2_arr m ρ c 3).trans ((ScaleMM.final (V1 m ρ) c).trans ?_)
  show ScaleMM.G (W1 m ρ c (Proc.devRef .tc main_arg0)) (W1 m ρ c (Proc.devRef .tc main_arg2)) (W1 m ρ c (Proc.devRef .tc main_v11)) = _
  rw [w1_arg0, w1_arg2, w1_v11]; rfl
theorem w2_v1 (c : Dev nD) : W2 m ρ c (Proc.devRef .tc main_v1) = W1 m ρ c (Proc.devRef .tc main_v1) :=
  W2_of_ne m ρ c main_v1 (by decide)
theorem w2_v3 (c : Dev nD) : W2 m ρ c (Proc.devRef .tc main_v3) = W1 m ρ c (Proc.devRef .tc main_v3) :=
  W2_of_ne m ρ c main_v3 (by decide)
theorem w2_arg3 (c : Dev nD) : W2 m ρ c (Proc.devRef .tc main_arg3) = W1 m ρ c (Proc.devRef .tc main_arg3) :=
  W2_of_ne m ρ c main_arg3 (by decide)
theorem w2_arg4 (c : Dev nD) : W2 m ρ c (Proc.devRef .tc main_arg4) = W1 m ρ c (Proc.devRef .tc main_arg4) :=
  W2_of_ne m ρ c main_arg4 (by decide)
theorem w2_arg5 (c : Dev nD) : W2 m ρ c (Proc.devRef .tc main_arg5) = W1 m ρ c (Proc.devRef .tc main_arg5) :=
  W2_of_ne m ρ c main_arg5 (by decide)
theorem w2_v11 (c : Dev nD) : W2 m ρ c (Proc.devRef .tc main_v11) = W1 m ρ c (Proc.devRef .tc main_v11) :=
  (W2_arr m ρ c 2).trans (((dat0 (V1 m ρ) c).arrAt_in 2 rfl _).trans (A_eq0 (V1 m ρ) c 2))

/-! ### After the second host stretch -/
theorem w3_v12 (c : Dev nD) : W3 m ρ c (Proc.devRef .tc main_v12) = W2 m ρ c (Proc.devRef .tc main_v12) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_v11 (c : Dev nD) : W3 m ρ c (Proc.devRef .tc main_v11) = W2 m ρ c (Proc.devRef .tc main_v11) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_arg4 (c : Dev nD) : W3 m ρ c (Proc.devRef .tc main_arg4) = W2 m ρ c (Proc.devRef .tc main_arg4) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_v1 (c : Dev nD) : W3 m ρ c (Proc.devRef .tc main_v1) = W2 m ρ c (Proc.devRef .tc main_v1) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_v3 (c : Dev nD) : W3 m ρ c (Proc.devRef .tc main_v3) = W2 m ρ c (Proc.devRef .tc main_v3) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_arg5 (c : Dev nD) : W3 m ρ c (Proc.devRef .tc main_arg5) = W2 m ρ c (Proc.devRef .tc main_arg5) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_v22 (c : Dev nD) : W3 m ρ c (Proc.devRef .tc main_v22)
    = agg64 (g1Of (m ((c : Thread nD τ).loc main_arg0)) (m ((c : Thread nD τ).loc main_arg1)) (m ((c : Thread nD τ).loc main_arg2))) (srcOf (m ((c : Thread nD τ).loc main_arg1))) (dstOf (m ((c : Thread nD τ).loc main_arg1))) := by
  refine (s1_v22 (W2 m ρ c)).trans ?_
  rw [w2_v12, w2_v1, w2_v3, w1_v1, w1_v3]
theorem w3_v23 (c : Dev nD) : W3 m ρ c (Proc.devRef .tc main_v23) = shapeCast _ (m ((c : Thread nD τ).loc main_arg3)) shapeCasts_S64_S1x64 := by
  refine (s1_v23 (W2 m ρ c)).trans ?_
  rw [w2_arg3, w1_arg3]

/-! ### After the second launch -/
theorem w4_v24 (c : Dev nD) : W4 m ρ c (Proc.devRef .tc main_v24) = g2Of (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Fused.final (V3 m ρ) c).trans ?_)
  show Fused.G (W3 m ρ c (Proc.devRef .tc main_v22)) (W3 m ρ c (Proc.devRef .tc main_v12)) (W3 m ρ c (Proc.devRef .tc main_v11))
    (W3 m ρ c (Proc.devRef .tc main_v23)) (W3 m ρ c (Proc.devRef .tc main_arg4)) = _
  rw [w3_v22, w3_v12, w2_v12, w3_v11, w2_v11, w1_v11, w3_v23, w3_arg4, w2_arg4, w1_arg4]; rfl
theorem w4_v1 (c : Dev nD) : W4 m ρ c (Proc.devRef .tc main_v1) = W3 m ρ c (Proc.devRef .tc main_v1) :=
  W4_of_ne m ρ c main_v1 (by decide)
theorem w4_v3 (c : Dev nD) : W4 m ρ c (Proc.devRef .tc main_v3) = W3 m ρ c (Proc.devRef .tc main_v3) :=
  W4_of_ne m ρ c main_v3 (by decide)
theorem w4_arg5 (c : Dev nD) : W4 m ρ c (Proc.devRef .tc main_arg5) = W3 m ρ c (Proc.devRef .tc main_arg5) :=
  W4_of_ne m ρ c main_arg5 (by decide)
theorem w4_v11 (c : Dev nD) : W4 m ρ c (Proc.devRef .tc main_v11) = W3 m ρ c (Proc.devRef .tc main_v11) :=
  (W4_arr m ρ c 2).trans (((dat1 (V3 m ρ) c).arrAt_in 2 rfl _).trans (A_eq1 (V3 m ρ) c 2))

/-! ### After the third host stretch -/
theorem w5_v24 (c : Dev nD) : W5 m ρ c (Proc.devRef .tc main_v24) = W4 m ρ c (Proc.devRef .tc main_v24) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_v11 (c : Dev nD) : W5 m ρ c (Proc.devRef .tc main_v11) = W4 m ρ c (Proc.devRef .tc main_v11) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_v34 (c : Dev nD) : W5 m ρ c (Proc.devRef .tc main_v34)
    = agg32 (g2Of (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  refine (s2_v34 (W4 m ρ c)).trans ?_
  rw [w4_v24, w4_v1, w3_v1, w2_v1, w1_v1, w4_v3, w3_v3, w2_v3, w1_v3]
theorem w5_v35 (c : Dev nD) : W5 m ρ c (Proc.devRef .tc main_v35) = shapeCast _ (m ((c : Thread nD τ).loc main_arg5)) shapeCasts_S32_S1x32 := by
  refine (s2_v35 (W4 m ρ c)).trans ?_
  rw [w4_arg5, w3_arg5, w2_arg5, w1_arg5]

/-! ### After the third launch -/

/-- The result buffer after the run is the closed form of the six arguments. -/
theorem kernel_value (c : Dev nD) : W6 m ρ c (Proc.devRef .tc main_v36)
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 4).trans ((Combine.final (V5 m ρ) c).trans ?_)
  show Combine.G (W5 m ρ c (Proc.devRef .tc main_v34)) (W5 m ρ c (Proc.devRef .tc main_v24)) (W5 m ρ c (Proc.devRef .tc main_v11))
    (W5 m ρ c (Proc.devRef .tc main_v35)) = _
  rw [w5_v34, w5_v24, w4_v24, w5_v11, w4_v11, w3_v11, w2_v11, w1_v11, w5_v35]; rfl

end Walk

end Cert.KernelIdeal.Fold

end
-- ==== Proof.FiniteArgs.lean ====
import proofs.«133190_j29600914604111_2_alg».proof.Defs
import proofs.«133190_j29600914604111_2_alg».proof.Proof.Gen.Pre_finite_inputs
import Idealize.ShloMosaic.Lib.ReduceAll
import Idealize.ShloMosaic.Lib.ValueIdx

noncomputable section

namespace Cert.FiniteArgs

open Idealize.ShloMosaic Idealize.ShloMosaic.ValueIdx

/-- The pattern 0x7F800000 (sign 0, exponent all ones, fraction 0) denotes +infinity. -/
theorem ofBits_inf : Ideal.ofBits .f32 0x7F800000#32 = (⊤ : EReal) := by
  simp [Ideal.ofBits, Ideal.ieee]

/-- An extended real whose absolute value max x (-x) is strictly below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A boolean read as a one-bit word is the word 1 exactly when it is true. -/
theorem ofBool_eq_one (b : Bool) : BitVec.ofBool b = 1#1 ↔ b = true := by cases b <;> decide

/-- The scalar shape has exactly one index. -/
instance subsingleton_scalar_idx : Subsingleton Cert.Pre_finite_inputs.S_.Idx :=
  ⟨fun a b => funext fun d => d.elim0⟩

/-- One conjunct of the predicate, for an array of any shape: if the conjunction over all entries of
    "|a i| < +infinity" is true, then every entry of a is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, a i = (r : EReal) := by
  intro i
  have hi := Host.reduce_andi_all _ _ hr hu ix0 e i
  have hlt : max (a i) (-(a i)) < (⊤ : EReal) := by
    have h2 : BitVec.ofBool (decide (max (a i) (-(a i)) < Ideal.ofBits .f32 0x7F800000#32)) = 1#1 := hi
    rw [ofBits_inf] at h2
    exact of_decide_eq_true ((ofBool_eq_one _).1 h2)
  exact real_of_abs_lt_top (a i) hlt

/-- The finite-inputs predicate, read back: when it is all ones, every entry of each of the five float
    arguments is a real number (the integer argument is not constrained). -/
theorem real_of_pre [hP : Cert.Pre_finite_inputs.Facts]
    (a0 : FVec Ideal Cert.Pre_finite_inputs.S100000x128 .f32)
    (a1 : IVec Cert.Pre_finite_inputs.S2x1000000 32)
    (a2 : FVec Ideal Cert.Pre_finite_inputs.S128x64 .f32)
    (a3 : FVec Ideal Cert.Pre_finite_inputs.S64 .f32)
    (a4 : FVec Ideal Cert.Pre_finite_inputs.S64x32 .f32)
    (a5 : FVec Ideal Cert.Pre_finite_inputs.S32 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) := by
  have h0 := congrFun h ix0
  dsimp only [Cert.Pre_finite_inputs.fn, Cert.Pre_finite_inputs.fn_part1, andi] at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨real_of_all _ _ _ a0 e0, real_of_all _ _ _ a2 e2, real_of_all _ _ _ a3 e3,
    real_of_all _ _ _ a4 e4, real_of_all _ _ _ a5 e5⟩

end Cert.FiniteArgs
-- ==== Proof.IndexedRows.lean ====
import proofs.«133190_j29600914604111_2_alg».proof.KernelIdeal
import Idealize.ShloMosaic.Lib.ValueIdx

/-!
# Row gathers and row scatters read at an index

A row gather x[idx] over an operand of 100000 rows and a column of 1000000 start words reads, for edge e, the
operand row whose number is the start word idx[e, 0] read as a signed integer and clamped into [0, 99999]. A row
scatter lands update (e, c) on the operand row idx[e, 0] read signed and not clamped, and drops it when that row
is outside [0, 100000).
-/

noncomputable section

namespace Cert.IndexedRows

open Idealize.ShloMosaic Idealize.ShloMosaic.ValueIdx Cert.KernelIdeal

/-- The operand row a start word names: the word read as a signed integer, clamped into [0, 99999]. -/
def rowOf (w : BitVec 32) : Fin 100000 := ⟨min w.toInt.toNat 99999, by omega⟩

/-- A start word whose signed reading is already a row number names that row. -/
theorem rowOf_of_toInt (w : BitVec 32) (i : Fin 100000) (h : w.toInt = (i.val : Int)) : rowOf w = i := by
  refine Fin.ext ?_
  have hi := i.isLt
  show min w.toInt.toNat 99999 = i.val
  rw [h]
  omega

/-- A start word whose signed reading is a row number is not negative, so the wrap-around of a negative word (adding
    100000 to it) leaves it alone, and it names that row. -/
theorem rowOf_norm (w : BitVec 32) (i : Fin 100000) (h : w.toInt = (i.val : Int)) :
    rowOf (if w.slt 0#32 then w + 100000#32 else w) = i := by
  have h0 : (0#32 : BitVec 32).toInt = 0 := by decide
  have hs : w.slt 0#32 = false := by
    unfold BitVec.slt
    rw [h, h0]
    exact decide_eq_false (by omega)
  rw [if_neg (by rw [hs]; exact Bool.false_ne_true)]
  exact rowOf_of_toInt w i h

section Gather
variable {α : Type}

/-- The dimension numbers of a row gather of a [100000, C] operand at a [1000000, 1] column of start words: the
    result's axis 1 is the row's column, operand axis 0 is collapsed and named by the start index. -/
abbrev rowDims (C : Nat)
    (wf : GatherDims.WF ⟨2, ![100000, C]⟩ ⟨2, ![1000000, 1]⟩ ⟨2, ![1000000, C]⟩ [1] [0] [] [0] [] 1 ![1, C]) :
    GatherDims ⟨2, ![100000, C]⟩ ⟨2, ![1000000, 1]⟩ ⟨2, ![1000000, C]⟩ where
  offsetDims := [1]
  collapsedSliceDims := [0]
  operandBatchingDims := []
  startIndicesBatchingDims := []
  startIndexMap := [0]
  indexVectorDim := 1
  sliceSizes := ![1, C]
  wf := wf

/-- The row gather read at (e, c): the operand at row rowOf idx[e, 0], column c. -/
theorem gatherRows_apply {C : Nat}
    (wf : GatherDims.WF ⟨2, ![100000, C]⟩ ⟨2, ![1000000, 1]⟩ ⟨2, ![1000000, C]⟩ [1] [0] [] [0] [] 1 ![1, C])
    (x : (⟨2, ![100000, C]⟩ : Shape).Idx → α) (idx : IVec ⟨2, ![1000000, 1]⟩ 32) (e : Fin 1000000) (c : Fin C) :
    Host.gather (rowDims C wf) x idx (ix2 e c) = x (ix2 (rowOf (idx (ix2 e (0 : Fin 1)))) c) := by
  unfold Host.gather
  congr 1
  funext a
  refine Fin.ext ?_
  match a with
  | ⟨0, _⟩ =>
    show (rowDims C wf).start (ix2 e c) idx 0 + (rowDims C wf).batchCoord (ix2 e c) 0
      + (rowDims C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims C wf).startIndexMap from List.mem_singleton.mpr rfl)]
    have hsi : (rowDims C wf).siIdx (ix2 e c) ⟨List.idxOf (0 : Fin 2) (rowDims C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims C wf).start (ix2 e c) idx 1 + (rowDims C wf).batchCoord (ix2 e c) 1
      + (rowDims C wf).offCoord (ix2 e c) 1 = _
    rw [GatherDims.batchCoord_eq_zero _ _ _ List.not_mem_nil]
    unfold GatherDims.start
    rw [dif_neg (show ¬ (1 : Fin 2) ∈ (rowDims C wf).startIndexMap from (by decide : (1 : Fin 2) ∉ ([0] : List (Fin 2))))]
    unfold GatherDims.offCoord
    rw [dif_pos (show (1 : Fin 2) ∈ (rowDims C wf).sKept from (GatherDims.mem_sKept _ _).mpr
      ⟨(by decide : (1 : Fin 2) ∉ ([0] : List (Fin 2))), List.not_mem_nil⟩)]
    simp only [Nat.zero_add, Nat.add_zero]
    rfl

/-- The dimension numbers of a gather of a flat [100000] operand at a [1000000, 1] column of start words: no offset
    axis, operand axis 0 collapsed and named by the start index. -/
abbrev flatDims
    (wf : GatherDims.WF ⟨1, ![100000]⟩ ⟨2, ![1000000, 1]⟩ ⟨1, ![1000000]⟩ [] [0] [] [0] [] 1 ![1]) :
    GatherDims ⟨1, ![100000]⟩ ⟨2, ![1000000, 1]⟩ ⟨1, ![1000000]⟩ where
  offsetDims := []
  collapsedSliceDims := [0]
  operandBatchingDims := []
  startIndicesBatchingDims := []
  startIndexMap := [0]
  indexVectorDim := 1
  sliceSizes := ![1]
  wf := wf

/-- The flat gather read at e: the operand at entry rowOf idx[e, 0]. -/
theorem gatherFlat_apply
    (wf : GatherDims.WF ⟨1, ![100000]⟩ ⟨2, ![1000000, 1]⟩ ⟨1, ![1000000]⟩ [] [0] [] [0] [] 1 ![1])
    (x : (⟨1, ![100000]⟩ : Shape).Idx → α) (idx : IVec ⟨2, ![1000000, 1]⟩ 32) (e : Fin 1000000) :
    Host.gather (flatDims wf) x idx (ix1 e) = x (ix1 (rowOf (idx (ix2 e (0 : Fin 1))))) := by
  unfold Host.gather
  congr 1
  funext a
  obtain rfl : a = 0 := Subsingleton.elim _ _
  refine Fin.ext ?_
  show (flatDims wf).start (ix1 e) idx 0 + (flatDims wf).batchCoord (ix1 e) 0 + (flatDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims wf).startIndexMap from List.mem_singleton.mpr rfl)]
  have hsi : (flatDims wf).siIdx (ix1 e) ⟨List.idxOf (0 : Fin 1) (flatDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of a row scatter into a [100000, C] operand of [1000000, C] updates at a [1000000, 1]
    column of start words: the updates' axis 1 is the row's column, operand axis 0 is named by the start index. -/
abbrev rowScatterDims (C : Nat)
    (wf : ScatterDims.WF ⟨2, ![100000, C]⟩ ⟨2, ![1000000, 1]⟩ ⟨2, ![1000000, C]⟩ [1] [0] [0] 1) :
    ScatterDims ⟨2, ![100000, C]⟩ ⟨2, ![1000000, 1]⟩ ⟨2, ![1000000, C]⟩ where
  updateWindowDims := [1]
  insertedWindowDims := [0]
  scatterDimsToOperandDims := [0]
  indexVectorDim := 1
  wf := wf

/-- An update that lands, lands on the row its start word names: the word idx[e, 0], read signed, is the row. -/
theorem scatterRows_hit {C : Nat}
    (wf : ScatterDims.WF ⟨2, ![100000, C]⟩ ⟨2, ![1000000, 1]⟩ ⟨2, ![1000000, C]⟩ [1] [0] [0] 1)
    (idx : IVec ⟨2, ![1000000, 1]⟩ 32) (j : (⟨2, ![1000000, C]⟩ : Shape).Idx) (s : (⟨2, ![100000, C]⟩ : Shape).Idx)
    (h : (rowScatterDims C wf).resultIdx? j idx = some s) :
    (idx (ix2 (j 0) (0 : Fin 1))).toInt = ((s 0).val : Int) := by
  have hstart : (rowScatterDims C wf).start j idx 0 = (idx (ix2 (j 0) (0 : Fin 1))).toInt := by
    unfold ScatterDims.start
    rw [dif_pos (show (0 : Fin 2) ∈ (rowScatterDims C wf).scatterDimsToOperandDims from List.mem_singleton.mpr rfl)]
    have hsi : (rowScatterDims C wf).siIdx j ⟨List.idxOf (0 : Fin 2) (rowScatterDims C wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hwin : (rowScatterDims C wf).window j 0 = 0 := by
    unfold ScatterDims.window
    rw [dif_neg (show ¬ (0 : Fin 2) ∈ (rowScatterDims C wf).sKept from
      (by decide : (0 : Fin 2) ∉ (List.finRange 2).filter (· ∉ ([0] : List (Fin 2)))))]
  unfold ScatterDims.resultIdx? at h
  split at h
  · rename_i hb
    have hs := Option.some.inj h
    have h0 : ((rowScatterDims C wf).start j idx 0 + ((rowScatterDims C wf).window j 0 : Nat)).toNat = (s 0).val :=
      congrArg (fun f => (f 0).val) hs
    have hb0 := (hb 0).1
    rw [hstart, hwin] at h0 hb0
    omega
  · exact absurd h (by simp)

/-- The dimension numbers of a scatter into a flat [100000] operand of [1000000] updates at a [1000000, 1] column
    of start words. -/
abbrev flatScatterDims
    (wf : ScatterDims.WF ⟨1, ![100000]⟩ ⟨2, ![1000000, 1]⟩ ⟨1, ![1000000]⟩ [] [0] [0] 1) :
    ScatterDims ⟨1, ![100000]⟩ ⟨2, ![1000000, 1]⟩ ⟨1, ![1000000]⟩ where
  updateWindowDims := []
  insertedWindowDims := [0]
  scatterDimsToOperandDims := [0]
  indexVectorDim := 1
  wf := wf

/-- A flat update that lands, lands on the entry its start word names. -/
theorem scatterFlat_hit
    (wf : ScatterDims.WF ⟨1, ![100000]⟩ ⟨2, ![1000000, 1]⟩ ⟨1, ![1000000]⟩ [] [0] [0] 1)
    (idx : IVec ⟨2, ![1000000, 1]⟩ 32) (j : (⟨1, ![1000000]⟩ : Shape).Idx) (s : (⟨1, ![100000]⟩ : Shape).Idx)
    (h : (flatScatterDims wf).resultIdx? j idx = some s) :
    (idx (ix2 (j 0) (0 : Fin 1))).toInt = ((s 0).val : Int) := by
  have hstart : (flatScatterDims wf).start j idx 0 = (idx (ix2 (j 0) (0 : Fin 1))).toInt := by
    unfold ScatterDims.start
    rw [dif_pos (show (0 : Fin 1) ∈ (flatScatterDims wf).scatterDimsToOperandDims from List.mem_singleton.mpr rfl)]
    have hsi : (flatScatterDims wf).siIdx j ⟨List.idxOf (0 : Fin 1) (flatScatterDims wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hwin : (flatScatterDims wf).window j 0 = 0 := by
    unfold ScatterDims.window
    rw [dif_neg (show ¬ (0 : Fin 1) ∈ (flatScatterDims wf).sKept from
      (by decide : (0 : Fin 1) ∉ (List.finRange 1).filter (· ∉ ([0] : List (Fin 1)))))]
  unfold ScatterDims.resultIdx? at h
  split at h
  · rename_i hb
    have hs := Option.some.inj h
    have h0 : ((flatScatterDims wf).start j idx 0 + ((flatScatterDims wf).window j 0 : Nat)).toNat = (s 0).val :=
      congrArg (fun f => (f 0).val) hs
    have hb0 := (hb 0).1
    rw [hstart, hwin] at h0 hb0
    omega
  · exact absurd h (by simp)

end Scatter

/-! ## The kernel program's records -/

section KernelRecords
variable {α : Type}

theorem gather64_apply [Facts₀] (x : S100000x64.Idx → α) (idx : IVec S1000000x1 32) (e : Fin 1000000) (c : Fin 64) :
    Host.gather gather_S100000x64_S1000000x1_S1000000x64_1_0_n_n_0_1_164 x idx (ix2 e c)
      = x (ix2 (rowOf (idx (ix2 e (0 : Fin 1)))) c) :=
  gatherRows_apply (C := 64) gather_S100000x64_S1000000x1_S1000000x64_1_0_n_n_0_1_164.wf x idx e c

theorem gather32_apply [Facts₀] (x : S100000x32.Idx → α) (idx : IVec S1000000x1 32) (e : Fin 1000000) (c : Fin 32) :
    Host.gather gather_S100000x32_S1000000x1_S1000000x32_1_0_n_n_0_1_132 x idx (ix2 e c)
      = x (ix2 (rowOf (idx (ix2 e (0 : Fin 1)))) c) :=
  gatherRows_apply (C := 32) gather_S100000x32_S1000000x1_S1000000x32_1_0_n_n_0_1_132.wf x idx e c

theorem scatter64_hit [Facts₀] (idx : IVec S1000000x1 32) (j : S1000000x64.Idx) (s : S100000x64.Idx)
    (h : scatter_S100000x64_S1000000x1_S1000000x64_1_0_0_1.resultIdx? j idx = some s) :
    (idx (ix2 (j 0) (0 : Fin 1))).toInt = ((s 0).val : Int) :=
  scatterRows_hit (C := 64) scatter_S100000x64_S1000000x1_S1000000x64_1_0_0_1.wf idx j s h

theorem scatter32_hit [Facts₀] (idx : IVec S1000000x1 32) (j : S1000000x32.Idx) (s : S100000x32.Idx)
    (h : scatter_S100000x32_S1000000x1_S1000000x32_1_0_0_1.resultIdx? j idx = some s) :
    (idx (ix2 (j 0) (0 : Fin 1))).toInt = ((s 0).val : Int) :=
  scatterRows_hit (C := 32) scatter_S100000x32_S1000000x1_S1000000x32_1_0_0_1.wf idx j s h

theorem scatter1_hit [Facts₀] (idx : IVec S1000000x1 32) (j : S1000000.Idx) (s : S100000.Idx)
    (h : scatter_S100000_S1000000x1_S1000000_n_0_0_1.resultIdx? j idx = some s) :
    (idx (ix2 (j 0) (0 : Fin 1))).toInt = ((s 0).val : Int) :=
  scatterFlat_hit scatter_S100000_S1000000x1_S1000000_n_0_0_1.wf idx j s h

end KernelRecords

end Cert.IndexedRows
-- ==== Proof.LibHitSet.lean ====
/-
  The scatter-add of the ideal instance, read at one element: the operand's element plus the sum of the updates that
  land on it.  The set of those updates is named once here so that the two programs' sums range over one set.
-/
import Idealize.ShloMosaic.PureOps.Ideal

noncomputable section

open scoped BigOperators

namespace Cert.Hits

open Idealize.ShloMosaic

/-- The updates that land on operand element i: those whose start word, read signed, plus window coordinate is i. -/
def hitSet {s si su : Shape} (d : ScatterDims s si su) {w : Nat} (idx : IVec si w) (i : s.Idx) : Finset su.Idx :=
  Finset.univ.filter (fun j => d.resultIdx? j idx = some i)

theorem mem_hitSet {s si su : Shape} (d : ScatterDims s si su) {w : Nat} (idx : IVec si w) (i : s.Idx) (j : su.Idx) :
    j ∈ hitSet d idx i ↔ d.resultIdx? j idx = some i := by
  unfold hitSet
  rw [Finset.mem_filter]
  exact ⟨fun h => h.2, fun h => ⟨Finset.mem_univ _, h⟩⟩

/-- The host's float scatter-add at element i. -/
theorem scatterAdd_at {s si su : Shape} (d : ScatterDims s si su) {w : Nat} (z : FVec Ideal s .f32) (idx : IVec si w)
    (u : FVec Ideal su .f32) (i : s.Idx) :
    Host.scatterAdd (F := Ideal) d z idx u i = z i + ∑ j ∈ hitSet d idx i, u j := rfl

end Cert.Hits

end
-- ==== Proof.KernelAt.lean ====
import proofs.«133190_j29600914604111_2_alg».proof.Proof.KernelFold
import proofs.«133190_j29600914604111_2_alg».proof.Proof.IndexedRows
import proofs.«133190_j29600914604111_2_alg».proof.Proof.LibHitSet
import Idealize.ShloMosaic.Lib.Pipeline.Value
import Idealize.ShloMosaic.Lib.ValueIdx

/-!
# The kernel's closed form read at explicit coordinates

The one-column normaliser at (i, 0) is the flat one at i (a reshape keeps row-major positions); a bias reshaped to one
row, at (0, k), is the bias at k. The first launch's row i is (Σ_k x[i,k]·w[k,c])·dinv[i]. Gathering rows at the
sources and scatter-adding them at the destinations gives, at (i, c), zero plus the sum, over the updates that land
on (i, c), of the gathered operand's entry in the row the update's wrapped and clamped source names. The second and
third launches' closed forms at (i, c) follow by reading their definitions at the index built from i and c.
-/

noncomputable section

namespace Cert.KernelIdeal.At

open Cert.KernelIdeal Cert.KernelIdeal.Gen Cert.KernelIdeal.Fold Cert.IndexedRows Cert.Hits Idealize.ShloMosaic Idealize.ShloMosaic.ValueIdx
open scoped BigOperators

/-! ## The three launches' closed forms at an index built from its two coordinates -/

theorem scaleMM_G_at (X : S100000x128.Idx → EReal) (W : S128x64.Idx → EReal) (D : S100000x1.Idx → EReal)
    (i : Fin 100000) (c : Fin 64) :
    ScaleMM.G X W D (ix2 i c) = (∑ k : Fin 128, X (ix2 i k) * W (ix2 k c)) * D (ix2 i (0 : Fin 1)) := rfl

theorem fused_G_at (A Gs : S100000x64.Idx → EReal) (D : S100000x1.Idx → EReal) (B : S1x64.Idx → EReal)
    (W : S64x32.Idx → EReal) (i : Fin 100000) (c : Fin 32) :
    Fused.G A Gs D B W (ix2 i c)
      = (∑ k : Fin 64, max ((A (ix2 i k) + Gs (ix2 i k)) * D (ix2 i (0 : Fin 1)) + B (ix2 (0 : Fin 1) k)) 0 * W (ix2 k c))
        * D (ix2 i (0 : Fin 1)) := rfl

theorem combine_G_at (A0 A1 : S100000x32.Idx → EReal) (A2 : S100000x1.Idx → EReal) (A3 : S1x32.Idx → EReal)
    (i : Fin 100000) (c : Fin 32) :
    Combine.G A0 A1 A2 A3 (ix2 i c) = (A0 (ix2 i c) + A1 (ix2 i c)) * A2 (ix2 i (0 : Fin 1)) + A3 (ix2 (0 : Fin 1) c) := rfl

/-! ## Reshapes at an index -/

/-- The one-column normaliser at (i, 0) is the flat normaliser at i. -/
theorem dinvOf_at (a1 : (⟨S2x1000000, .i32⟩ : BufTy).Contents (Elt Ideal)) (i : Fin 100000) :
    dinvOf a1 (ix2 i (0 : Fin 1)) = dinvFlat a1 (ix1 i) := by
  unfold dinvOf
  refine shapeCast_apply _ _ _ _ ?_
  rw [Shape.rowMajor_val_one, Shape.rowMajor_val_two]
  show i.val = i.val * 1 + 0
  omega

/-- The first bias as one row, at (0, k), is the bias at k. -/
theorem b1r_at (a3 : (⟨S64, .f32⟩ : BufTy).Contents (Elt Ideal)) (k : Fin 64) :
    (shapeCast S1x64 a3 shapeCasts_S64_S1x64) (ix2 (0 : Fin 1) k) = a3 (ix1 k) := by
  refine shapeCast_apply _ _ _ _ ?_
  rw [Shape.rowMajor_val_one, Shape.rowMajor_val_two]
  show k.val = 0 * 64 + k.val
  omega

/-- The second bias as one row, at (0, k), is the bias at k. -/
theorem b2r_at (a5 : (⟨S32, .f32⟩ : BufTy).Contents (Elt Ideal)) (k : Fin 32) :
    (shapeCast S1x32 a5 shapeCasts_S32_S1x32) (ix2 (0 : Fin 1) k) = a5 (ix1 k) := by
  refine shapeCast_apply _ _ _ _ ?_
  rw [Shape.rowMajor_val_one, Shape.rowMajor_val_two]
  show k.val = 0 * 32 + k.val
  omega

/-! ## The first launch -/

theorem g1Of_at (a0 : (⟨S100000x128, .f32⟩ : BufTy).Contents (Elt Ideal)) (a1 : (⟨S2x1000000, .i32⟩ : BufTy).Contents (Elt Ideal))
    (a2 : (⟨S128x64, .f32⟩ : BufTy).Contents (Elt Ideal)) (i : Fin 100000) (c : Fin 64) :
    g1Of a0 a1 a2 (ix2 i c) = (∑ k : Fin 128, a0 (ix2 i k) * a2 (ix2 k c)) * dinvFlat a1 (ix1 i) := by
  unfold g1Of
  rw [scaleMM_G_at, dinvOf_at]

/-! ## Gather at the sources, scatter-add at the destinations -/

/-- The all-zero operand of the scatter-add, at any index, is 0. -/
theorem zero64_at (p : S100000x64.Idx) :
    (broadcastInDim S100000x64 ![] bcast_S_S100000x64 (constant (F := Ideal) S_ .f32 0x00000000#32)) p = (0 : EReal) := by
  rw [broadcastInDim_apply _ _ _ _ ix0 (fun a => a.elim0), constant_apply, Ideal.ofBits_zero_f32]

theorem zero32_at (p : S100000x32.Idx) :
    (broadcastInDim S100000x32 ![] bcast_S_S100000x32 (constant (F := Ideal) S_ .f32 0x00000000#32)) p = (0 : EReal) := by
  rw [broadcastInDim_apply _ _ _ _ ix0 (fun a => a.elim0), constant_apply, Ideal.ofBits_zero_f32]

theorem agg64_at (g : (⟨S100000x64, .f32⟩ : BufTy).Contents (Elt Ideal)) (s d : (⟨S1000000, .i32⟩ : BufTy).Contents (Elt Ideal))
    (i : Fin 100000) (c : Fin 64) :
    agg64 g s d (ix2 i c) = 0 + ∑ j ∈ hitSet scatter_S100000x64_S1000000x1_S1000000x64_1_0_0_1 (dstB d) (ix2 i c),
      g (ix2 (rowOf (nsrcB s (ix2 (⟨(j 0).val, idx2_lt0 j⟩ : Fin 1000000) (0 : Fin 1)))) (⟨(j 1).val, idx2_lt1 j⟩ : Fin 64)) := by
  unfold agg64
  rw [scatterAdd_at, zero64_at]
  refine congrArg (fun t => (0 : EReal) + t) (Finset.sum_congr rfl fun j _ => ?_)
  have hj : j = ix2 (⟨(j 0).val, idx2_lt0 j⟩ : Fin 1000000) (⟨(j 1).val, idx2_lt1 j⟩ : Fin 64) := eq_ix2 j
  exact (congrArg (Host.gather gather_S100000x64_S1000000x1_S1000000x64_1_0_n_n_0_1_164 g (nsrcB s)) hj).trans
    (gather64_apply g (nsrcB s) _ _)

theorem agg32_at (g : (⟨S100000x32, .f32⟩ : BufTy).Contents (Elt Ideal)) (s d : (⟨S1000000, .i32⟩ : BufTy).Contents (Elt Ideal))
    (i : Fin 100000) (c : Fin 32) :
    agg32 g s d (ix2 i c) = 0 + ∑ j ∈ hitSet scatter_S100000x32_S1000000x1_S1000000x32_1_0_0_1 (dstB d) (ix2 i c),
      g (ix2 (rowOf (nsrcB s (ix2 (⟨(j 0).val, idx2_lt0 j⟩ : Fin 1000000) (0 : Fin 1)))) (⟨(j 1).val, idx2_lt1 j⟩ : Fin 32)) := by
  unfold agg32
  rw [scatterAdd_at, zero32_at]
  refine congrArg (fun t => (0 : EReal) + t) (Finset.sum_congr rfl fun j _ => ?_)
  have hj : j = ix2 (⟨(j 0).val, idx2_lt0 j⟩ : Fin 1000000) (⟨(j 1).val, idx2_lt1 j⟩ : Fin 32) := eq_ix2 j
  exact (congrArg (Host.gather gather_S100000x32_S1000000x1_S1000000x32_1_0_n_n_0_1_132 g (nsrcB s)) hj).trans
    (gather32_apply g (nsrcB s) _ _)

/-! ## The second and third launches -/

theorem g2Of_at (a0 : (⟨S100000x128, .f32⟩ : BufTy).Contents (Elt Ideal)) (a1 : (⟨S2x1000000, .i32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (i : Fin 100000) (c : Fin 32) :
    g2Of a0 a1 a2 a3 a4 (ix2 i c)
      = (∑ k : Fin 64, max ((agg64 (g1Of a0 a1 a2) (srcOf a1) (dstOf a1) (ix2 i k) + g1Of a0 a1 a2 (ix2 i k)) * dinvFlat a1 (ix1 i)
          + a3 (ix1 k)) 0 * a4 (ix2 k c)) * dinvFlat a1 (ix1 i) := by
  unfold g2Of
  rw [fused_G_at, dinvOf_at]
  refine congrArg (fun t => t * dinvFlat a1 (ix1 i)) (Finset.sum_congr rfl fun k _ => ?_)
  rw [b1r_at]

theorem outOf_at (a0 : (⟨S100000x128, .f32⟩ : BufTy).Contents (Elt Ideal)) (a1 : (⟨S2x1000000, .i32⟩ : BufTy).Contents (Elt Ideal))
    (a2 : (⟨S128x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (i : Fin 100000) (c : Fin 32) :
    outOf a0 a1 a2 a3 a4 a5 (ix2 i c)
      = (agg32 (g2Of a0 a1 a2 a3 a4) (srcOf a1) (dstOf a1) (ix2 i c) + g2Of a0 a1 a2 a3 a4 (ix2 i c)) * dinvFlat a1 (ix1 i)
        + a5 (ix1 c) := by
  unfold outOf
  rw [combine_G_at, dinvOf_at, b2r_at]

end Cert.KernelIdeal.At
-- ==== Proof.LibExtRealLayer.lean ====
import Idealize.ShloMosaic.PureOps.Ideal

/-!
  Real-valued entries of a graph-convolution row on the extended reals.

  On `EReal` multiplication does not distribute over addition at the infinities, so two
  arrangements of the same row, `d · (Σ g + g₀)` with `g = h · d`, and
  `Σ h · (dγ · dδ) + h₀ · d²` with `dδ = d` on every summand, are compared only after every
  entry has been shown to be (the coercion of) a real number; the identity is then an identity
  of real numbers.
-/

noncomputable section

namespace Cert.ExtRealLayer

open scoped BigOperators
open Idealize.ShloMosaic

/-- An extended real that is the coercion of a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {υ : Type} (A : Finset υ) (f : υ → ℝ) :
    ((∑ j ∈ A, f j : ℝ) : EReal) = ∑ j ∈ A, (f j : EReal) := by
  classical
  refine Finset.induction_on A ?_ ?_
  · simp
  · intro a s ha ih
    rw [Finset.sum_insert ha, Finset.sum_insert ha, EReal.coe_add, ih]

/-- A finite sum of reals is real. -/
theorem IsReal.sum {υ : Type} (A : Finset υ) (f : υ → EReal) (h : ∀ j ∈ A, IsReal (f j)) :
    IsReal (∑ j ∈ A, f j) := by
  classical
  revert h
  refine Finset.induction_on A ?_ ?_
  · intro _
    rw [Finset.sum_empty]; exact isReal_zero
  · intro a s ha ih h
    rw [Finset.sum_insert ha]
    exact (h a (Finset.mem_insert_self a s)).add
      (ih fun j hj => h j (Finset.mem_insert_of_mem hj))

theorem IsReal.fsum {κ : Type} [Fintype κ] (f : κ → EReal) (h : ∀ k, IsReal (f k)) :
    IsReal (∑ k, f k) :=
  IsReal.sum Finset.univ f fun k _ => h k

/-- The all-zero single-precision pattern denotes `0`. -/
theorem ofBits_zero : Ideal.ofBits .f32 0x00000000#32 = 0 := by
  simp [Ideal.ofBits, Ideal.ieee]

/-- The single-precision pattern of `1.0` (exponent field 127, zero fraction) denotes `1`. -/
theorem ofBits_one : Ideal.ofBits .f32 0x3F800000#32 = 1 := by
  simp [Ideal.ofBits, Ideal.ieee, -EReal.coe_mul]; norm_num

/-- `1 + |A|`, written as `0 + Σ_{j ∈ A} 1 + 1`, is a real number `≥ 1`, so its reciprocal
    square root is the real `(√(1 + |A|))⁻¹`. -/
theorem isReal_rsqrt_count {υ : Type} (A : Finset υ) :
    IsReal (Ideal.rsqrt (((0 : EReal) + ∑ _j ∈ A, (1 : EReal)) + 1)) := by
  have hsum : (∑ _j ∈ A, (1 : EReal)) = (((A.card : ℝ)) : EReal) := by
    have h1 : (∑ _j ∈ A, (1 : EReal)) = ∑ _j ∈ A, (((1 : ℝ)) : EReal) := by
      simp only [EReal.coe_one]
    rw [h1, ← coe_sum]
    simp
  have harg : (((0 : EReal) + ∑ _j ∈ A, (1 : EReal)) + 1) = (((A.card : ℝ) + 1 : ℝ) : EReal) := by
    rw [hsum, zero_add, EReal.coe_add, EReal.coe_one]
  have hpos : (0 : ℝ) < (A.card : ℝ) + 1 := by positivity
  rw [harg, Ideal.rsqrt_coe, if_neg (not_lt.mpr hpos.le), if_neg hpos.ne']
  exact isReal_coe _

/-- The two arrangements of the row agree when every entry is real. The last summand `b` is
    added on both sides and may be any extended real. -/
theorem layer_eq {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) :
    (((0 : EReal) + ∑ j ∈ A, hγ j * dγ j) + h * d) * d + b
      = (((0 : EReal) + ∑ j ∈ A, hγ j * (dγ j * dδ j)) + h * (d * d)) + b := by
  classical
  obtain ⟨h', rfl⟩ := Hh0
  obtain ⟨d', rfl⟩ := Hd0
  -- real-valued representatives of the two families (arbitrary off `A`)
  let hr : υ → ℝ := fun j => if hj : j ∈ A then Classical.choose (Hh j hj) else 0
  let dr : υ → ℝ := fun j => if hj : j ∈ A then Classical.choose (Hd j hj) else 0
  have hhr : ∀ j ∈ A, hγ j = (hr j : EReal) := by
    intro j hj
    simp only [hr, dif_pos hj]
    exact Classical.choose_spec (Hh j hj)
  have hdr : ∀ j ∈ A, dγ j = (dr j : EReal) := by
    intro j hj
    simp only [dr, dif_pos hj]
    exact Classical.choose_spec (Hd j hj)
  have hL : (∑ j ∈ A, hγ j * dγ j) = ((∑ j ∈ A, hr j * dr j : ℝ) : EReal) := by
    rw [coe_sum]
    refine Finset.sum_congr rfl fun j hj => ?_
    rw [hhr j hj, hdr j hj, EReal.coe_mul]
  have hR : (∑ j ∈ A, hγ j * (dγ j * dδ j)) = ((∑ j ∈ A, hr j * (dr j * d') : ℝ) : EReal) := by
    rw [coe_sum]
    refine Finset.sum_congr rfl fun j hj => ?_
    rw [hhr j hj, hdr j hj, hδ j hj, EReal.coe_mul, EReal.coe_mul]
  congr 1
  rw [hL, hR, zero_add, zero_add, ← EReal.coe_mul, ← EReal.coe_mul, ← EReal.coe_mul,
    ← EReal.coe_add, ← EReal.coe_add, ← EReal.coe_mul]
  congr 1
  rw [add_mul, Finset.sum_mul]
  congr 1
  · refine Finset.sum_congr rfl fun j _ => ?_
    ring
  · ring

/-- The row in its second arrangement is real when every entry, and the last summand, is. -/
theorem layer_isReal {υ : Type} (A : Finset υ) (hγ dγ dδ : υ → EReal) (h d b : EReal)
    (Hh : ∀ j ∈ A, IsReal (hγ j)) (Hd : ∀ j ∈ A, IsReal (dγ j)) (Hh0 : IsReal h) (Hd0 : IsReal d)
    (hδ : ∀ j ∈ A, dδ j = d) (Hb : IsReal b) :
    IsReal ((((0 : EReal) + ∑ j ∈ A, hγ j * (dγ j * dδ j)) + h * (d * d)) + b) := by
  refine ((isReal_zero.add (IsReal.sum A _ fun j hj => ?_)).add (Hh0.mul (Hd0.mul Hd0))).add Hb
  rw [hδ j hj]
  exact (Hh j hj).mul ((Hd j hj).mul Hd0)

end Cert.ExtRealLayer
-- ==== Proof.RefRows.lean ====
import proofs.«133190_j29600914604111_2_alg».proof.Proof.Gen.ReferenceIdeal.Read
import proofs.«133190_j29600914604111_2_alg».proof.Proof.LibExtRealLayer
import Idealize.ShloMosaic.Lib.ValueIdx
import Idealize.ShloMosaic.Lib.ValueLayout

noncomputable section

namespace Cert.ReferenceIdeal.Rows

open Cert.ReferenceIdeal Cert.ReferenceIdeal.Read Idealize.ShloMosaic Idealize.ShloMosaic.ValueIdx
open scoped BigOperators

variable (x0 : (⟨S100000x128, .f32⟩ : BufTy).Contents (Elt Ideal))
  (x1 : (⟨S2x1000000, .i32⟩ : BufTy).Contents (Elt Ideal))
  (x2 : (⟨S128x64, .f32⟩ : BufTy).Contents (Elt Ideal))
  (x3 : (⟨S64, .f32⟩ : BufTy).Contents (Elt Ideal))
  (x4 : (⟨S64x32, .f32⟩ : BufTy).Contents (Elt Ideal))
  (x5 : (⟨S32, .f32⟩ : BufTy).Contents (Elt Ideal))

/-- Layer 1, the combined row before the rectifier: the scattered sum plus the self term
    (the product entry scaled by the squared normaliser) plus the bias. -/
theorem v47_at (i : Fin 100000) (c : Fin 64) :
    val_main_v47 (F := Ideal) x0 x1 x2 x3 (ix2 i c) =
      (val_main_v39 (F := Ideal) x0 x1 x2 (ix2 i c) + val_main_v4 (F := Ideal) x0 x2 (ix2 i c) *
        (val_main_v11 (F := Ideal) x1 (ix1 i) * val_main_v11 (F := Ideal) x1 (ix1 i))) + x3 (ix1 c) := by
  rw [val_main_v47_apply, val_main_v44_apply, val_main_v43_apply, val_main_v42_apply, val_main_v41_apply,
    val_main_v40_apply, val_main_v46_apply, val_main_v45_apply]
  have e1 : idx_main_v41 (idx_main_v42 (ix2 i c)) = ix1 i := by
    funext a; match a with | ⟨0, _⟩ => rfl
  have e2 : idx_main_v45 (idx_main_v46 (ix2 i c)) = ix1 c := by
    funext a; match a with | ⟨0, _⟩ => rfl
  rw [e1, e2]
  rfl

/-- Layer 1, one message: the gathered product row entry times the two gathered normalisers. -/
theorem v36_at (e : Fin 1000000) (c : Fin 64) :
    val_main_v36 (F := Ideal) x0 x1 x2 (ix2 e c) =
      val_main_v33 (F := Ideal) x0 x1 x2 (ix2 e c) *
        (val_main_v18 (F := Ideal) x1 (ix1 e) * val_main_v25 (F := Ideal) x1 (ix1 e)) := by
  rw [val_main_v36_apply, val_main_v35_apply, val_main_v34_apply, val_main_v26_apply]
  have e1 : idx_main_v34 (idx_main_v35 (ix2 e c)) = ix1 e := by
    funext a; match a with | ⟨0, _⟩ => rfl
  rw [e1]
  rfl

/-- Layer 1, the array the messages are added into starts at zero. -/
theorem v37_at (s : S100000x64.Idx) : val_main_v37 (F := Ideal) s = 0 := by
  rw [val_main_v37_apply, val_main_cst_7_apply]
  exact Cert.ExtRealLayer.ofBits_zero

/-- Layer 1, the matrix product at an entry: the sum over the 128 input features. -/
theorem v4_at (i : Fin 100000) (c : Fin 64) :
    val_main_v4 (F := Ideal) x0 x2 (ix2 i c) = ∑ k : Fin 128, x0 (ix2 i k) * x2 (ix2 k c) := by
  rw [val_main_v4_apply]
  refine Finset.sum_congr rfl fun k _ => ?_
  have el : lidx_main_v4 (ix2 i c) k = ix2 i k := by
    funext a; match a with | ⟨0, _⟩ => rfl | ⟨1, _⟩ => rfl
  have er : ridx_main_v4 (ix2 i c) k = ix2 k c := by
    funext a; match a with | ⟨0, _⟩ => rfl | ⟨1, _⟩ => rfl
  rw [el, er]

/-- Layer 1, the rectifier: the maximum with zero. -/
theorem v48_at (s : S100000x64.Idx) :
    val_main_v48 (F := Ideal) x0 x1 x2 x3 s = max (val_main_v47 (F := Ideal) x0 x1 x2 x3 s) 0 := by
  rw [val_main_v48_apply, val_main_call0_v0_apply, val_main_call0_cst_apply]
  show max _ (Ideal.ofBits .f32 0x00000000#32) = _
  rw [Cert.ExtRealLayer.ofBits_zero]

/-- Layer 2, the matrix product at an entry: the sum over the 64 hidden features. -/
theorem v49_at (i : Fin 100000) (c : Fin 32) :
    val_main_v49 (F := Ideal) x0 x1 x2 x3 x4 (ix2 i c) =
      ∑ k : Fin 64, val_main_v48 (F := Ideal) x0 x1 x2 x3 (ix2 i k) * x4 (ix2 k c) := by
  rw [val_main_v49_apply]
  refine Finset.sum_congr rfl fun k _ => ?_
  have el : lidx_main_v49 (ix2 i c) k = ix2 i k := by
    funext a; match a with | ⟨0, _⟩ => rfl | ⟨1, _⟩ => rfl
  have er : ridx_main_v49 (ix2 i c) k = ix2 k c := by
    funext a; match a with | ⟨0, _⟩ => rfl | ⟨1, _⟩ => rfl
  rw [el, er]

/-- Layer 2, the combined row: the scattered sum plus the self term plus the bias. -/
theorem v92_at (i : Fin 100000) (c : Fin 32) :
    val_main_v92 (F := Ideal) x0 x1 x2 x3 x4 x5 (ix2 i c) =
      (val_main_v84 (F := Ideal) x0 x1 x2 x3 x4 (ix2 i c) + val_main_v49 (F := Ideal) x0 x1 x2 x3 x4 (ix2 i c) *
        (val_main_v56 (F := Ideal) x1 (ix1 i) * val_main_v56 (F := Ideal) x1 (ix1 i))) + x5 (ix1 c) := by
  rw [val_main_v92_apply, val_main_v89_apply, val_main_v88_apply, val_main_v87_apply, val_main_v86_apply,
    val_main_v85_apply, val_main_v91_apply, val_main_v90_apply]
  have e1 : idx_main_v86 (idx_main_v87 (ix2 i c)) = ix1 i := by
    funext a; match a with | ⟨0, _⟩ => rfl
  have e2 : idx_main_v90 (idx_main_v91 (ix2 i c)) = ix1 c := by
    funext a; match a with | ⟨0, _⟩ => rfl
  rw [e1, e2]
  rfl

/-- Layer 2, one message: the gathered product row entry times the two gathered normalisers. -/
theorem v81_at (e : Fin 1000000) (c : Fin 32) :
    val_main_v81 (F := Ideal) x0 x1 x2 x3 x4 (ix2 e c) =
      val_main_v78 (F := Ideal) x0 x1 x2 x3 x4 (ix2 e c) *
        (val_main_v63 (F := Ideal) x1 (ix1 e) * val_main_v70 (F := Ideal) x1 (ix1 e)) := by
  rw [val_main_v81_apply, val_main_v80_apply, val_main_v79_apply, val_main_v71_apply]
  have e1 : idx_main_v79 (idx_main_v80 (ix2 e c)) = ix1 e := by
    funext a; match a with | ⟨0, _⟩ => rfl
  rw [e1]
  rfl

/-- Layer 2, the array the messages are added into starts at zero. -/
theorem v82_at (s : S100000x32.Idx) : val_main_v82 (F := Ideal) s = 0 := by
  rw [val_main_v82_apply, val_main_cst_17_apply]
  exact Cert.ExtRealLayer.ofBits_zero

/-! The integer side: the index arrays. -/

/-- The scatter's index column is the destination row of each edge. -/
theorem v38_at (e : Fin 1000000) :
    val_main_v38 (F := Ideal) x1 (ix2 e (0 : Fin 1)) = val_main_v3 (F := Ideal) x1 (ix1 e) := by
  rw [val_main_v38_apply]
  have e1 : idx_main_v38 (ix2 e (0 : Fin 1)) = ix1 e := by
    funext a; match a with | ⟨0, _⟩ => rfl
  rw [e1]

/-- The wrapped destination index: a nonnegative index is not moved. -/
theorem v24_of_nonneg (e : Fin 1000000) (h : 0 ≤ (val_main_v3 (F := Ideal) x1 (ix1 e)).toInt) :
    val_main_v24 (F := Ideal) x1 (ix2 e (0 : Fin 1)) = val_main_v3 (F := Ideal) x1 (ix1 e) := by
  rw [val_main_v24_apply]
  have e1 : idx_main_v24 (ix2 e (0 : Fin 1)) = ix1 e := by
    funext a; match a with | ⟨0, _⟩ => rfl
  rw [e1, val_main_v23_apply, val_main_v20_apply, val_main_v19_apply, val_main_c_3_apply]
  have hc : IntOp.cmpi .slt (val_main_v3 (F := Ideal) x1 (ix1 e)) 0#32 = 0#1 := by
    refine eq_zero_of_ne_one fun h1 => ?_
    have h2 := IntOp.cmpi_slt.1 h1
    rw [BitVec.toInt_zero] at h2
    omega
  rw [hc, select_zero]

/-! The two layers recompute the same index and normaliser chains: the duplicated arrays are equal. -/

theorem v56_eq_v11 : val_main_v56 (F := Ideal) x1 = val_main_v11 (F := Ideal) x1 := rfl
theorem v32_eq_v17 : val_main_v32 (F := Ideal) x1 = val_main_v17 (F := Ideal) x1 := rfl
theorem v62_eq_v17 : val_main_v62 (F := Ideal) x1 = val_main_v17 (F := Ideal) x1 := rfl
theorem v77_eq_v17 : val_main_v77 (F := Ideal) x1 = val_main_v17 (F := Ideal) x1 := rfl
theorem v69_eq_v24 : val_main_v69 (F := Ideal) x1 = val_main_v24 (F := Ideal) x1 := rfl
theorem v83_eq_v38 : val_main_v83 (F := Ideal) x1 = val_main_v38 (F := Ideal) x1 := rfl

/-! The normaliser is a real number. -/

/-- An accumulating scatter of ones into zeros counts, at each entry, the updates that land there;
    one more than that count is a real number at least 1, so its reciprocal square root is real. -/
theorem isReal_rsqrt_scatter_count {s si su : Shape} (d : ScatterDims s si su) {w : Nat}
    (x : FVec Ideal s .f32) (idx : IVec si w) (upd : FVec Ideal su .f32)
    (hx : ∀ i, x i = 0) (hu : ∀ j, upd j = 1) (i : s.Idx) :
    Cert.ExtRealLayer.IsReal (Ideal.rsqrt (Host.scatterAdd d x idx upd i + 1)) := by
  unfold Host.scatterAdd
  rw [Ideal.hostScatterAdd_def]
  unfold Ideal.hostScatterAdd
  rw [hx i, Finset.sum_congr rfl (fun j _ => hu j)]
  exact Cert.ExtRealLayer.isReal_rsqrt_count _

/-- The degree normaliser (the reciprocal square root of one plus the in-degree) is a real number. -/
theorem v11_real (i : S100000.Idx) : Cert.ExtRealLayer.IsReal (val_main_v11 (F := Ideal) x1 i) := by
  rw [val_main_v11_apply, val_main_v10_apply, val_main_v9_apply, val_main_cst_1_apply,
    Ideal.hostUnary_rsqrt_def, Ideal.addf_def, Ideal.ofBits_def, Cert.ExtRealLayer.ofBits_one]
  exact isReal_rsqrt_scatter_count scatter_S100000_S1000000x1_S1000000_n_0_0_1
    (val_main_v6 (F := Ideal)) (val_main_v7 (F := Ideal) x1) (val_main_v5 (F := Ideal))
    (fun i => by rw [val_main_v6_apply, val_main_cst_0_apply]; exact Cert.ExtRealLayer.ofBits_zero)
    (fun j => by rw [val_main_v5_apply, val_main_cst_apply]; exact Cert.ExtRealLayer.ofBits_one) i

end Cert.ReferenceIdeal.Rows
-- ==== Proof.CrossTerms.lean ====
import proofs.«133190_j29600914604111_2_alg».proof.Proof.KernelFold
import proofs.«133190_j29600914604111_2_alg».proof.Proof.Gen.ReferenceIdeal.Read

/-!
  The host operations on the edge list, as the two programs spell them.

  Both programs apply the same host operations to the edge list: the two row slices, the degree
  count (a scatter-add of ones) and its reciprocal square root, the wrap of negative indices, and
  the broadcasts to a column of start words. Each program writes them over its own copies of the
  literal shapes and dimension records; the two spellings are the same terms, so each pair of
  values is equal, and the two programs' scatter dimension records are equal.
-/

set_option maxRecDepth 16384

noncomputable section

namespace Cert.Cross

open Idealize.ShloMosaic Idealize.SL.Sem

/-- The destinations: row 1 of the edge list, flattened. -/
theorem v3_eq (x1 : (⟨Cert.ReferenceIdeal.S2x1000000, .i32⟩ : BufTy).Contents (Elt Ideal)) :
    Cert.ReferenceIdeal.Read.val_main_v3 (F := Ideal) x1 = Cert.KernelIdeal.Fold.dstOf x1 := rfl

/-- The normaliser: the reciprocal square root of the in-degree plus one. -/
theorem v11_eq (x1 : (⟨Cert.ReferenceIdeal.S2x1000000, .i32⟩ : BufTy).Contents (Elt Ideal)) :
    Cert.ReferenceIdeal.Read.val_main_v11 (F := Ideal) x1 = Cert.KernelIdeal.Fold.dinvFlat x1 := rfl

/-- The gathers' start words: the sources, a negative one wrapped by the number of nodes. -/
theorem v17_eq (x1 : (⟨Cert.ReferenceIdeal.S2x1000000, .i32⟩ : BufTy).Contents (Elt Ideal)) :
    Cert.ReferenceIdeal.Read.val_main_v17 (F := Ideal) x1
      = Cert.KernelIdeal.Fold.nsrcB (Cert.KernelIdeal.Fold.srcOf x1) := rfl

/-- The scatters' start words: the destinations as a column. -/
theorem v38_eq (x1 : (⟨Cert.ReferenceIdeal.S2x1000000, .i32⟩ : BufTy).Contents (Elt Ideal)) :
    Cert.ReferenceIdeal.Read.val_main_v38 (F := Ideal) x1
      = Cert.KernelIdeal.Fold.dstB (Cert.KernelIdeal.Fold.dstOf x1) := rfl

/-- The two programs' scatter dimension records for 64-column rows are equal. -/
theorem sd64_eq :
    Cert.ReferenceIdeal.scatter_S100000x64_S1000000x1_S1000000x64_1_0_0_1
      = Cert.KernelIdeal.scatter_S100000x64_S1000000x1_S1000000x64_1_0_0_1 := rfl

/-- The two programs' scatter dimension records for 32-column rows are equal. -/
theorem sd32_eq :
    Cert.ReferenceIdeal.scatter_S100000x32_S1000000x1_S1000000x32_1_0_0_1
      = Cert.KernelIdeal.scatter_S100000x32_S1000000x1_S1000000x32_1_0_0_1 := rfl

end Cert.Cross
-- ==== Proof.IndexedRowsRef.lean ====
import proofs.«133190_j29600914604111_2_alg».proof.Proof.IndexedRows
import proofs.«133190_j29600914604111_2_alg».proof.ReferenceIdeal

/-!
# The row gathers and row scatters of the reference program, read at an index

The record-free facts about a row gather and a row scatter, stated for the reference program's own dimension-number
records.
-/

noncomputable section

namespace Cert.IndexedRows.Ref

open Idealize.ShloMosaic Idealize.ShloMosaic.ValueIdx Cert.ReferenceIdeal

variable {α : Type}

theorem gather64_apply [Facts₀] (x : S100000x64.Idx → α) (idx : IVec S1000000x1 32) (e : Fin 1000000) (c : Fin 64) :
    Host.gather gather_S100000x64_S1000000x1_S1000000x64_1_0_n_n_0_1_164 x idx (ix2 e c)
      = x (ix2 (rowOf (idx (ix2 e (0 : Fin 1)))) c) :=
  gatherRows_apply (C := 64) gather_S100000x64_S1000000x1_S1000000x64_1_0_n_n_0_1_164.wf x idx e c

theorem gather32_apply [Facts₀] (x : S100000x32.Idx → α) (idx : IVec S1000000x1 32) (e : Fin 1000000) (c : Fin 32) :
    Host.gather gather_S100000x32_S1000000x1_S1000000x32_1_0_n_n_0_1_132 x idx (ix2 e c)
      = x (ix2 (rowOf (idx (ix2 e (0 : Fin 1)))) c) :=
  gatherRows_apply (C := 32) gather_S100000x32_S1000000x1_S1000000x32_1_0_n_n_0_1_132.wf x idx e c

theorem gather1_apply [Facts₀] (x : S100000.Idx → α) (idx : IVec S1000000x1 32) (e : Fin 1000000) :
    Host.gather gather_S100000_S1000000x1_S1000000_n_0_n_n_0_1_1 x idx (ix1 e)
      = x (ix1 (rowOf (idx (ix2 e (0 : Fin 1))))) :=
  gatherFlat_apply gather_S100000_S1000000x1_S1000000_n_0_n_n_0_1_1.wf x idx e

theorem scatter64_hit [Facts₀] (idx : IVec S1000000x1 32) (j : S1000000x64.Idx) (s : S100000x64.Idx)
    (h : scatter_S100000x64_S1000000x1_S1000000x64_1_0_0_1.resultIdx? j idx = some s) :
    (idx (ix2 (j 0) (0 : Fin 1))).toInt = ((s 0).val : Int) :=
  scatterRows_hit (C := 64) scatter_S100000x64_S1000000x1_S1000000x64_1_0_0_1.wf idx j s h

theorem scatter32_hit [Facts₀] (idx : IVec S1000000x1 32) (j : S1000000x32.Idx) (s : S100000x32.Idx)
    (h : scatter_S100000x32_S1000000x1_S1000000x32_1_0_0_1.resultIdx? j idx = some s) :
    (idx (ix2 (j 0) (0 : Fin 1))).toInt = ((s 0).val : Int) :=
  scatterRows_hit (C := 32) scatter_S100000x32_S1000000x1_S1000000x32_1_0_0_1.wf idx j s h

theorem scatter1_hit [Facts₀] (idx : IVec S1000000x1 32) (j : S1000000.Idx) (s : S100000.Idx)
    (h : scatter_S100000_S1000000x1_S1000000_n_0_0_1.resultIdx? j idx = some s) :
    (idx (ix2 (j 0) (0 : Fin 1))).toInt = ((s 0).val : Int) :=
  scatterFlat_hit scatter_S100000_S1000000x1_S1000000_n_0_0_1.wf idx j s h

end Cert.IndexedRows.Ref
-- ==== Proof.Bridge.lean ====
/-
  The two programs compute one function of the arguments.

  Per layer and per row i, column k, the kernel's closed form is  (Σ_{updates landing on (i,k)} g[src] + g[i,k])·dinv[i] + b[k]
  with g = h·dinv, and the reference's operations give  (Σ h[src]·(dinv[src]·dinv[dst]) + h[i,k]·dinv[i]²) + b[k]  over the
  same set of updates (the two programs' scatters have equal dimension records and equal start words).  An update lands
  on row i exactly when its destination word, read signed, is i; such a word is not negative, so the reference's wrap
  of negative indices leaves it alone and its clamped gather reads dinv[i].  Every entry is a real number — the
  arguments by the precondition, dinv as the rsqrt of a count plus one, h as a finite sum of products — so the two
  arrangements agree by distributivity over the reals.  Layer 2's h is the product of max(layer 1, 0) with the second
  weights on both sides, equal once layer 1 is.
-/
import proofs.«133190_j29600914604111_2_alg».proof.Proof.KernelAt
import proofs.«133190_j29600914604111_2_alg».proof.Proof.RefRows
import proofs.«133190_j29600914604111_2_alg».proof.Proof.CrossTerms
import proofs.«133190_j29600914604111_2_alg».proof.Proof.IndexedRows
import proofs.«133190_j29600914604111_2_alg».proof.Proof.IndexedRowsRef
import proofs.«133190_j29600914604111_2_alg».proof.Proof.LibHitSet
import proofs.«133190_j29600914604111_2_alg».proof.Proof.LibExtRealLayer

set_option maxRecDepth 16384

noncomputable section

open scoped BigOperators

namespace Cert.Bridge

open Idealize.ShloMosaic Idealize.ShloMosaic.ValueIdx
open Cert.KernelIdeal Cert.KernelIdeal.Fold Cert.KernelIdeal.At Cert.IndexedRows Cert.Hits Cert.ExtRealLayer Cert.Cross
open Cert.ReferenceIdeal.Read (val_main_v3 val_main_v4 val_main_v11 val_main_v17 val_main_v18 val_main_v24 val_main_v25 val_main_v32 val_main_v33 val_main_v36 val_main_v37 val_main_v38 val_main_v39 val_main_v47 val_main_v48 val_main_v49 val_main_v56 val_main_v62 val_main_v63 val_main_v69 val_main_v70 val_main_v77 val_main_v78 val_main_v81 val_main_v82 val_main_v83 val_main_v84 val_main_v92)
open Cert.ReferenceIdeal.Rows

/-! ## The row arrangement, abstractly -/

theorem rows_eq {υ : Type} (A : Finset υ) (γ δ : υ → Fin 100000) (D : Fin 100000 → EReal) (hv : υ → EReal) (h b : EReal)
    (i : Fin 100000) (HD : ∀ n, IsReal (D n)) (Hh : ∀ j ∈ A, IsReal (hv j)) (Hh0 : IsReal h) (hδ : ∀ j ∈ A, δ j = i) :
    ((0 + ∑ j ∈ A, hv j * D (γ j)) + h * D i) * D i + b
      = ((0 + ∑ j ∈ A, hv j * (D (γ j) * D (δ j))) + h * (D i * D i)) + b :=
  layer_eq A hv (fun j => D (γ j)) (fun j => D (δ j)) h (D i) b Hh (fun j _ => HD _) Hh0 (HD i)
    (fun j hj => by show D (δ j) = D i; rw [hδ j hj])

theorem rows_real {υ : Type} (A : Finset υ) (γ δ : υ → Fin 100000) (D : Fin 100000 → EReal) (hv : υ → EReal) (h b : EReal)
    (i : Fin 100000) (HD : ∀ n, IsReal (D n)) (Hh : ∀ j ∈ A, IsReal (hv j)) (Hh0 : IsReal h) (hδ : ∀ j ∈ A, δ j = i)
    (Hb : IsReal b) :
    IsReal (((0 + ∑ j ∈ A, hv j * (D (γ j) * D (δ j))) + h * (D i * D i)) + b) :=
  layer_isReal A hv (fun j => D (γ j)) (fun j => D (δ j)) h (D i) b Hh (fun j _ => HD _) Hh0 (HD i)
    (fun j hj => by show D (δ j) = D i; rw [hδ j hj]) Hb

section Programs
variable (a0 : (⟨S100000x128, .f32⟩ : BufTy).Contents (Elt Ideal)) (a1 : (⟨S2x1000000, .i32⟩ : BufTy).Contents (Elt Ideal)) (a2 : (⟨S128x64, .f32⟩ : BufTy).Contents (Elt Ideal))
  (a3 : (⟨S64, .f32⟩ : BufTy).Contents (Elt Ideal)) (a4 : (⟨S64x32, .f32⟩ : BufTy).Contents (Elt Ideal)) (a5 : (⟨S32, .f32⟩ : BufTy).Contents (Elt Ideal))

/-- The normaliser of node n. -/
def D (n : Fin 100000) : EReal := dinvFlat a1 (ix1 n)
/-- The row an edge's (wrapped, clamped) source names. -/
def γE (e : Fin 1000000) : Fin 100000 := rowOf (nsrcB (srcOf a1) (ix2 e (0 : Fin 1)))
/-- The row an edge's (wrapped, clamped) destination names, as the reference gathers it. -/
def δE (e : Fin 1000000) : Fin 100000 := rowOf (val_main_v24 (F := Ideal) a1 (ix2 e (0 : Fin 1)))

/-- The normaliser is a real number: the rsqrt of a count plus one. -/
theorem D_real (n : Fin 100000) : IsReal (D a1 n) := by
  unfold D; rw [← v11_eq]; exact v11_real a1 (ix1 n)

/-- An update that lands on row i of the 64-column operand has destination i, so the reference's (wrapped) destination
    gather reads row i. -/
theorem hit64 (i : Fin 100000) (k : Fin 64) (j : S1000000x64.Idx)
    (hj : j ∈ hitSet scatter_S100000x64_S1000000x1_S1000000x64_1_0_0_1 (dstB (dstOf a1)) (ix2 i k)) : δE a1 (⟨(j 0).val, idx2_lt0 j⟩ : Fin 1000000) = i := by
  have h1 : (dstB (dstOf a1) (ix2 (j 0) (0 : Fin 1))).toInt = ((i : Fin 100000).val : Int) :=
    scatter64_hit (dstB (dstOf a1)) j (ix2 i k) ((mem_hitSet _ _ _ _).mp hj)
  have h2 : val_main_v38 (F := Ideal) a1 (ix2 (⟨(j 0).val, idx2_lt0 j⟩ : Fin 1000000) (0 : Fin 1)) = val_main_v3 (F := Ideal) a1 (ix1 (⟨(j 0).val, idx2_lt0 j⟩ : Fin 1000000)) := v38_at a1 _
  rw [v38_eq] at h2
  have h3 : (val_main_v3 (F := Ideal) a1 (ix1 (⟨(j 0).val, idx2_lt0 j⟩ : Fin 1000000))).toInt = (i.val : Int) := by rw [← h2]; exact h1
  unfold δE
  rw [v24_of_nonneg a1 _ (by rw [h3]; exact Int.natCast_nonneg _)]
  exact rowOf_of_toInt _ i h3

/-- Layer 1: the kernel's arrangement dinv·(Σ g[src] + g) + b of a row is the reference's
    Σ h[src]·(dinv[src]·dinv[dst]) + h·dinv² + b, when the kernel's g is the reference's h scaled by dinv and h is real. -/
theorem layer1_of (gK : (⟨S100000x64, .f32⟩ : BufTy).Contents (Elt Ideal)) (hR : (⟨S100000x64, .f32⟩ : BufTy).Contents (Elt Ideal))
    (hg : ∀ (n : Fin 100000) (c : Fin 64), gK (ix2 n c) = hR (ix2 n c) * D a1 n)
    (hH : ∀ (n : Fin 100000) (c : Fin 64), IsReal (hR (ix2 n c)))
    (b : (⟨S64, .f32⟩ : BufTy).Contents (Elt Ideal)) (hb : ∀ c : Fin 64, IsReal (b (ix1 c)))
    (vAgg : (⟨S100000x64, .f32⟩ : BufTy).Contents (Elt Ideal))
    (hAgg : ∀ (i : Fin 100000) (k : Fin 64), vAgg (ix2 i k) = 0 + ∑ j ∈ hitSet scatter_S100000x64_S1000000x1_S1000000x64_1_0_0_1 (dstB (dstOf a1)) (ix2 i k),
        hR (ix2 (γE a1 (⟨(j 0).val, idx2_lt0 j⟩ : Fin 1000000)) (⟨(j 1).val, idx2_lt1 j⟩ : Fin 64)) * (D a1 (γE a1 (⟨(j 0).val, idx2_lt0 j⟩ : Fin 1000000)) * D a1 (δE a1 (⟨(j 0).val, idx2_lt0 j⟩ : Fin 1000000))))
    (i : Fin 100000) (k : Fin 64) :
    ((agg64 gK (srcOf a1) (dstOf a1) (ix2 i k) + gK (ix2 i k)) * D a1 i + b (ix1 k)
      = (vAgg (ix2 i k) + hR (ix2 i k) * (D a1 i * D a1 i)) + b (ix1 k))
    ∧ IsReal ((vAgg (ix2 i k) + hR (ix2 i k) * (D a1 i * D a1 i)) + b (ix1 k)) := by
  have hD : ∀ n, IsReal (D a1 n) := D_real a1
  have eK : agg64 gK (srcOf a1) (dstOf a1) (ix2 i k)
      = 0 + ∑ j ∈ hitSet scatter_S100000x64_S1000000x1_S1000000x64_1_0_0_1 (dstB (dstOf a1)) (ix2 i k),
          hR (ix2 (γE a1 (⟨(j 0).val, idx2_lt0 j⟩ : Fin 1000000)) (⟨(j 1).val, idx2_lt1 j⟩ : Fin 64)) * D a1 (γE a1 (⟨(j 0).val, idx2_lt0 j⟩ : Fin 1000000)) := by
    rw [agg64_at]
    exact congrArg (0 + ·) (Finset.sum_congr rfl fun j _ => hg _ _)
  rw [eK, hAgg, hg]
  have Hh : ∀ j ∈ (hitSet scatter_S100000x64_S1000000x1_S1000000x64_1_0_0_1 (dstB (dstOf a1)) (ix2 i k)), IsReal ((fun j : S1000000x64.Idx => hR (ix2 (γE a1 (⟨(j 0).val, idx2_lt0 j⟩ : Fin 1000000)) (⟨(j 1).val, idx2_lt1 j⟩ : Fin 64))) j) := fun j _ => hH _ _
  have hδ : ∀ j ∈ (hitSet scatter_S100000x64_S1000000x1_S1000000x64_1_0_0_1 (dstB (dstOf a1)) (ix2 i k)), (fun j : S1000000x64.Idx => δE a1 (⟨(j 0).val, idx2_lt0 j⟩ : Fin 1000000)) j = i := fun j hj => hit64 a1 i k j hj
  refine ⟨?_, ?_⟩
  · exact rows_eq (hitSet scatter_S100000x64_S1000000x1_S1000000x64_1_0_0_1 (dstB (dstOf a1)) (ix2 i k)) (fun j : S1000000x64.Idx => γE a1 (⟨(j 0).val, idx2_lt0 j⟩ : Fin 1000000)) (fun j : S1000000x64.Idx => δE a1 (⟨(j 0).val, idx2_lt0 j⟩ : Fin 1000000)) (D a1) (fun j : S1000000x64.Idx => hR (ix2 (γE a1 (⟨(j 0).val, idx2_lt0 j⟩ : Fin 1000000)) (⟨(j 1).val, idx2_lt1 j⟩ : Fin 64))) (hR (ix2 i k)) (b (ix1 k)) i hD Hh (hH i k) hδ
  · exact rows_real (hitSet scatter_S100000x64_S1000000x1_S1000000x64_1_0_0_1 (dstB (dstOf a1)) (ix2 i k)) (fun j : S1000000x64.Idx => γE a1 (⟨(j 0).val, idx2_lt0 j⟩ : Fin 1000000)) (fun j : S1000000x64.Idx => δE a1 (⟨(j 0).val, idx2_lt0 j⟩ : Fin 1000000)) (D a1) (fun j : S1000000x64.Idx => hR (ix2 (γE a1 (⟨(j 0).val, idx2_lt0 j⟩ : Fin 1000000)) (⟨(j 1).val, idx2_lt1 j⟩ : Fin 64))) (hR (ix2 i k)) (b (ix1 k)) i hD Hh (hH i k) hδ (hb k)

/-- An update that lands on row i of the 32-column operand has destination i, so the reference's (wrapped) destination
    gather reads row i. -/
theorem hit32 (i : Fin 100000) (k : Fin 32) (j : S1000000x32.Idx)
    (hj : j ∈ hitSet scatter_S100000x32_S1000000x1_S1000000x32_1_0_0_1 (dstB (dstOf a1)) (ix2 i k)) : δE a1 (⟨(j 0).val, idx2_lt0 j⟩ : Fin 1000000) = i := by
  have h1 : (dstB (dstOf a1) (ix2 (j 0) (0 : Fin 1))).toInt = ((i : Fin 100000).val : Int) :=
    scatter32_hit (dstB (dstOf a1)) j (ix2 i k) ((mem_hitSet _ _ _ _).mp hj)
  have h2 : val_main_v38 (F := Ideal) a1 (ix2 (⟨(j 0).val, idx2_lt0 j⟩ : Fin 1000000) (0 : Fin 1)) = val_main_v3 (F := Ideal) a1 (ix1 (⟨(j 0).val, idx2_lt0 j⟩ : Fin 1000000)) := v38_at a1 _
  rw [v38_eq] at h2
  have h3 : (val_main_v3 (F := Ideal) a1 (ix1 (⟨(j 0).val, idx2_lt0 j⟩ : Fin 1000000))).toInt = (i.val : Int) := by rw [← h2]; exact h1
  unfold δE
  rw [v24_of_nonneg a1 _ (by rw [h3]; exact Int.natCast_nonneg _)]
  exact rowOf_of_toInt _ i h3

/-- Layer 2: the kernel's arrangement dinv·(Σ g[src] + g) + b of a row is the reference's
    Σ h[src]·(dinv[src]·dinv[dst]) + h·dinv² + b, when the kernel's g is the reference's h scaled by dinv and h is real. -/
theorem layer2_of (gK : (⟨S100000x32, .f32⟩ : BufTy).Contents (Elt Ideal)) (hR : (⟨S100000x32, .f32⟩ : BufTy).Contents (Elt Ideal))
    (hg : ∀ (n : Fin 100000) (c : Fin 32), gK (ix2 n c) = hR (ix2 n c) * D a1 n)
    (hH : ∀ (n : Fin 100000) (c : Fin 32), IsReal (hR (ix2 n c)))
    (b : (⟨S32, .f32⟩ : BufTy).Contents (Elt Ideal)) (hb : ∀ c : Fin 32, IsReal (b (ix1 c)))
    (vAgg : (⟨S100000x32, .f32⟩ : BufTy).Contents (Elt Ideal))
    (hAgg : ∀ (i : Fin 100000) (k : Fin 32), vAgg (ix2 i k) = 0 + ∑ j ∈ hitSet scatter_S100000x32_S1000000x1_S1000000x32_1_0_0_1 (dstB (dstOf a1)) (ix2 i k),
        hR (ix2 (γE a1 (⟨(j 0).val, idx2_lt0 j⟩ : Fin 1000000)) (⟨(j 1).val, idx2_lt1 j⟩ : Fin 32)) * (D a1 (γE a1 (⟨(j 0).val, idx2_lt0 j⟩ : Fin 1000000)) * D a1 (δE a1 (⟨(j 0).val, idx2_lt0 j⟩ : Fin 1000000))))
    (i : Fin 100000) (k : Fin 32) :
    ((agg32 gK (srcOf a1) (dstOf a1) (ix2 i k) + gK (ix2 i k)) * D a1 i + b (ix1 k)
      = (vAgg (ix2 i k) + hR (ix2 i k) * (D a1 i * D a1 i)) + b (ix1 k))
    ∧ IsReal ((vAgg (ix2 i k) + hR (ix2 i k) * (D a1 i * D a1 i)) + b (ix1 k)) := by
  have hD : ∀ n, IsReal (D a1 n) := D_real a1
  have eK : agg32 gK (srcOf a1) (dstOf a1) (ix2 i k)
      = 0 + ∑ j ∈ hitSet scatter_S100000x32_S1000000x1_S1000000x32_1_0_0_1 (dstB (dstOf a1)) (ix2 i k),
          hR (ix2 (γE a1 (⟨(j 0).val, idx2_lt0 j⟩ : Fin 1000000)) (⟨(j 1).val, idx2_lt1 j⟩ : Fin 32)) * D a1 (γE a1 (⟨(j 0).val, idx2_lt0 j⟩ : Fin 1000000)) := by
    rw [agg32_at]
    exact congrArg (0 + ·) (Finset.sum_congr rfl fun j _ => hg _ _)
  rw [eK, hAgg, hg]
  have Hh : ∀ j ∈ (hitSet scatter_S100000x32_S1000000x1_S1000000x32_1_0_0_1 (dstB (dstOf a1)) (ix2 i k)), IsReal ((fun j : S1000000x32.Idx => hR (ix2 (γE a1 (⟨(j 0).val, idx2_lt0 j⟩ : Fin 1000000)) (⟨(j 1).val, idx2_lt1 j⟩ : Fin 32))) j) := fun j _ => hH _ _
  have hδ : ∀ j ∈ (hitSet scatter_S100000x32_S1000000x1_S1000000x32_1_0_0_1 (dstB (dstOf a1)) (ix2 i k)), (fun j : S1000000x32.Idx => δE a1 (⟨(j 0).val, idx2_lt0 j⟩ : Fin 1000000)) j = i := fun j hj => hit32 a1 i k j hj
  refine ⟨?_, ?_⟩
  · exact rows_eq (hitSet scatter_S100000x32_S1000000x1_S1000000x32_1_0_0_1 (dstB (dstOf a1)) (ix2 i k)) (fun j : S1000000x32.Idx => γE a1 (⟨(j 0).val, idx2_lt0 j⟩ : Fin 1000000)) (fun j : S1000000x32.Idx => δE a1 (⟨(j 0).val, idx2_lt0 j⟩ : Fin 1000000)) (D a1) (fun j : S1000000x32.Idx => hR (ix2 (γE a1 (⟨(j 0).val, idx2_lt0 j⟩ : Fin 1000000)) (⟨(j 1).val, idx2_lt1 j⟩ : Fin 32))) (hR (ix2 i k)) (b (ix1 k)) i hD Hh (hH i k) hδ
  · exact rows_real (hitSet scatter_S100000x32_S1000000x1_S1000000x32_1_0_0_1 (dstB (dstOf a1)) (ix2 i k)) (fun j : S1000000x32.Idx => γE a1 (⟨(j 0).val, idx2_lt0 j⟩ : Fin 1000000)) (fun j : S1000000x32.Idx => δE a1 (⟨(j 0).val, idx2_lt0 j⟩ : Fin 1000000)) (D a1) (fun j : S1000000x32.Idx => hR (ix2 (γE a1 (⟨(j 0).val, idx2_lt0 j⟩ : Fin 1000000)) (⟨(j 1).val, idx2_lt1 j⟩ : Fin 32))) (hR (ix2 i k)) (b (ix1 k)) i hD Hh (hH i k) hδ (hb k)

/-- Layer 1, the reference's aggregate at (i, k): zero plus, over the updates that land there, the gathered
    row entry times the product of the two gathered normalisers. -/
theorem agg1_ref (i : Fin 100000) (k : Fin 64) :
    val_main_v39 (F := Ideal) a0 a1 a2 (ix2 i k) = 0 + ∑ j ∈ hitSet scatter_S100000x64_S1000000x1_S1000000x64_1_0_0_1 (dstB (dstOf a1)) (ix2 i k),
        val_main_v4 (F := Ideal) a0 a2 (ix2 (γE a1 (⟨(j 0).val, idx2_lt0 j⟩ : Fin 1000000)) (⟨(j 1).val, idx2_lt1 j⟩ : Fin 64)) * (D a1 (γE a1 (⟨(j 0).val, idx2_lt0 j⟩ : Fin 1000000)) * D a1 (δE a1 (⟨(j 0).val, idx2_lt0 j⟩ : Fin 1000000))) := by
  unfold val_main_v39
  rw [scatterAdd_at, v37_at, sd64_eq, v38_eq]
  refine congrArg (0 + ·) (Finset.sum_congr rfl fun j _ => ?_)
  obtain ⟨e, c', rfl⟩ : ∃ (e : Fin 1000000) (c' : Fin 64), j = ix2 e c' := ⟨j 0, j 1, eq_ix2 j⟩
  rw [v36_at]
  unfold val_main_v33 val_main_v18 val_main_v25
  rw [Ref.gather64_apply, Ref.gather1_apply, Ref.gather1_apply, v32_eq_v17, v17_eq, v11_eq]
  rfl

/-- Layer 2, the reference's aggregate at (i, k): zero plus, over the updates that land there, the gathered
    row entry times the product of the two gathered normalisers. -/
theorem agg2_ref (i : Fin 100000) (k : Fin 32) :
    val_main_v84 (F := Ideal) a0 a1 a2 a3 a4 (ix2 i k) = 0 + ∑ j ∈ hitSet scatter_S100000x32_S1000000x1_S1000000x32_1_0_0_1 (dstB (dstOf a1)) (ix2 i k),
        val_main_v49 (F := Ideal) a0 a1 a2 a3 a4 (ix2 (γE a1 (⟨(j 0).val, idx2_lt0 j⟩ : Fin 1000000)) (⟨(j 1).val, idx2_lt1 j⟩ : Fin 32)) * (D a1 (γE a1 (⟨(j 0).val, idx2_lt0 j⟩ : Fin 1000000)) * D a1 (δE a1 (⟨(j 0).val, idx2_lt0 j⟩ : Fin 1000000))) := by
  unfold val_main_v84
  rw [scatterAdd_at, v82_at, sd32_eq, v83_eq_v38, v38_eq]
  refine congrArg (0 + ·) (Finset.sum_congr rfl fun j _ => ?_)
  obtain ⟨e, c', rfl⟩ : ∃ (e : Fin 1000000) (c' : Fin 32), j = ix2 e c' := ⟨j 0, j 1, eq_ix2 j⟩
  rw [v81_at]
  unfold val_main_v78 val_main_v63 val_main_v70
  rw [Ref.gather32_apply, Ref.gather1_apply, Ref.gather1_apply, v77_eq_v17, v62_eq_v17, v69_eq_v24, v17_eq, v56_eq_v11, v11_eq]
  rfl

/-! ## Layer 1 -/

theorem g1_eq (n : Fin 100000) (c : Fin 64) : g1Of a0 a1 a2 (ix2 n c) = val_main_v4 (F := Ideal) a0 a2 (ix2 n c) * D a1 n := by
  rw [g1Of_at, v4_at]; rfl

section Real
variable (h0 : ∀ i, IsReal (a0 i)) (h2 : ∀ i, IsReal (a2 i)) (h3 : ∀ i, IsReal (a3 i)) (h4 : ∀ i, IsReal (a4 i)) (h5 : ∀ i, IsReal (a5 i))
include h0 h2

theorem h1_real (n : Fin 100000) (c : Fin 64) : IsReal (val_main_v4 (F := Ideal) a0 a2 (ix2 n c)) := by
  rw [v4_at]; exact IsReal.fsum _ fun q => (h0 _).mul (h2 _)

include h3

theorem layer1 (i : Fin 100000) (k : Fin 64) :
    ((agg64 (g1Of a0 a1 a2) (srcOf a1) (dstOf a1) (ix2 i k) + g1Of a0 a1 a2 (ix2 i k)) * D a1 i + a3 (ix1 k)
      = val_main_v47 (F := Ideal) a0 a1 a2 a3 (ix2 i k)) ∧ IsReal (val_main_v47 (F := Ideal) a0 a1 a2 a3 (ix2 i k)) := by
  have := layer1_of a1 (g1Of a0 a1 a2) (val_main_v4 (F := Ideal) a0 a2) (g1_eq a0 a1 a2) (h1_real a0 a2 h0 h2) a3 (fun c => h3 _)
    (val_main_v39 (F := Ideal) a0 a1 a2) (agg1_ref a0 a1 a2) i k
  rw [v47_at, v11_eq]
  exact this

/-! ## Layer 2 -/

theorem g2_eq (n : Fin 100000) (c : Fin 32) :
    g2Of a0 a1 a2 a3 a4 (ix2 n c) = val_main_v49 (F := Ideal) a0 a1 a2 a3 a4 (ix2 n c) * D a1 n := by
  rw [g2Of_at, v49_at]
  have e : (∑ k : Fin 64, max ((agg64 (g1Of a0 a1 a2) (srcOf a1) (dstOf a1) (ix2 n k) + g1Of a0 a1 a2 (ix2 n k)) * dinvFlat a1 (ix1 n)
        + a3 (ix1 k)) 0 * a4 (ix2 k c))
      = ∑ k : Fin 64, val_main_v48 (F := Ideal) a0 a1 a2 a3 (ix2 n k) * a4 (ix2 k c) :=
    Finset.sum_congr rfl fun k _ => by
      rw [v48_at, ← (layer1 a0 a1 a2 a3 h0 h2 h3 n k).1]; rfl
  rw [e]; rfl

include h4

theorem h2_real (n : Fin 100000) (c : Fin 32) : IsReal (val_main_v49 (F := Ideal) a0 a1 a2 a3 a4 (ix2 n c)) := by
  rw [v49_at]
  refine IsReal.fsum _ fun k => IsReal.mul ?_ (h4 _)
  rw [v48_at]
  exact (layer1 a0 a1 a2 a3 h0 h2 h3 n k).2.max isReal_zero

include h5

theorem layer2 (i : Fin 100000) (k : Fin 32) :
    (agg32 (g2Of a0 a1 a2 a3 a4) (srcOf a1) (dstOf a1) (ix2 i k) + g2Of a0 a1 a2 a3 a4 (ix2 i k)) * D a1 i + a5 (ix1 k)
      = val_main_v92 (F := Ideal) a0 a1 a2 a3 a4 a5 (ix2 i k) := by
  have := (layer2_of a1 (g2Of a0 a1 a2 a3 a4) (val_main_v49 (F := Ideal) a0 a1 a2 a3 a4) (g2_eq a0 a1 a2 a3 a4 h0 h2 h3)
    (h2_real a0 a1 a2 a3 a4 h0 h2 h3 h4) a5 (fun c => h5 _) (val_main_v84 (F := Ideal) a0 a1 a2 a3 a4) (agg2_ref a0 a1 a2 a3 a4) i k).1
  rw [v92_at, v56_eq_v11, v11_eq]
  exact this

/-- The kernel's closed form is the reference's composed term. -/
theorem out_eq' : outOf a0 a1 a2 a3 a4 a5 = val_main_v92 (F := Ideal) a0 a1 a2 a3 a4 a5 := by
  funext s
  obtain ⟨i, c, rfl⟩ : ∃ (i : Fin 100000) (c : Fin 32), s = ix2 i c := ⟨s 0, s 1, eq_ix2 s⟩
  rw [outOf_at]
  exact layer2 a0 a1 a2 a3 a4 a5 h0 h2 h3 h4 h5 i c

end Real
end Programs

theorem out_eq (a0 : (⟨S100000x128, .f32⟩ : BufTy).Contents (Elt Ideal)) (a1 : (⟨S2x1000000, .i32⟩ : BufTy).Contents (Elt Ideal)) (a2 : (⟨S128x64, .f32⟩ : BufTy).Contents (Elt Ideal))
    (a3 : (⟨S64, .f32⟩ : BufTy).Contents (Elt Ideal)) (a4 : (⟨S64x32, .f32⟩ : BufTy).Contents (Elt Ideal)) (a5 : (⟨S32, .f32⟩ : BufTy).Contents (Elt Ideal))
    (h0 : ∀ i, ∃ r : ℝ, a0 i = (r : EReal)) (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) :
    Cert.KernelIdeal.Fold.outOf a0 a1 a2 a3 a4 a5 = Cert.ReferenceIdeal.Read.val_main_v92 (F := Ideal) a0 a1 a2 a3 a4 a5 :=
  out_eq' a0 a1 a2 a3 a4 a5 h0 h2 h3 h4 h5

end Cert.Bridge

end
-- ==== Proof.lean ====
/-
  The certificate of a two-layer graph convolution (symmetric normalisation, self loops) computed by three grid
  launches against its plain reference, over the extended reals.

  With dinv = rsqrt(in-degree + 1), the reference forms per layer  Σ_{e → i} h[src e]·(dinv[src e]·dinv[dst e])
  + h[i]·dinv[i]² + b,  while the kernel pre-scales g = h·dinv, aggregates Σ_{e → i} g[src e], and forms
  dinv[i]·(Σ + g[i]) + b.  An edge that lands on row i has dst e = i, so the two agree by distributivity — which on
  the extended reals needs every entry to be a real number: the inputs are (the precondition), the degree is a count,
  so dinv is real, and sums, products and maxima of reals are real.  The matrix products agree because at the ideal
  instance a change of float format is the identity and the matrix unit's product into a zero accumulator is the
  plain sum, as the host's dot product is.

  The three frames: the two kernels' are the generated frames; the reference's is its generated run with the result
  dropped.  The idealization rewrote nothing, so its conjunct is trivial.
-/
import proofs.«133190_j29600914604111_2_alg».proof.Defs
import proofs.«133190_j29600914604111_2_alg».proof.Proof.Gen.Kernel
import proofs.«133190_j29600914604111_2_alg».proof.Proof.Gen.Kernel.Frame
import proofs.«133190_j29600914604111_2_alg».proof.Proof.Gen.KernelIdeal
import proofs.«133190_j29600914604111_2_alg».proof.Proof.Gen.KernelIdeal.Frame
import proofs.«133190_j29600914604111_2_alg».proof.Proof.Gen.ReferenceIdeal
import proofs.«133190_j29600914604111_2_alg».proof.Proof.Gen.Pre_finite_inputs
import proofs.«133190_j29600914604111_2_alg».proof.Proof.Gen.ReferenceIdeal.Run
import proofs.«133190_j29600914604111_2_alg».proof.Proof.Gen.ReferenceIdeal.Read
import proofs.«133190_j29600914604111_2_alg».proof.Proof.KernelNamed
import proofs.«133190_j29600914604111_2_alg».proof.Proof.KernelFold
import proofs.«133190_j29600914604111_2_alg».proof.Proof.FiniteArgs
import proofs.«133190_j29600914604111_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end, the kernel's result buffer at the closed form of its
    three launches (the kernel's run with that buffer named, read back through the fold) and the reference's at its
    operations' composed term; the two are one function of the arguments when every float argument is real. -/
theorem algebraic : Cert.algebraic_KernelIdeal_ReferenceIdeal := by
  intro m ρ m' ρ' hpre hagree
  refine ⟨fun c => Cert.KernelIdeal.Fold.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.kernel_value m ρ c), (h c).2⟩)
      (Cert.KernelIdeal.Named.run_named m ρ)
  · refine (θ_run Cert.ReferenceIdeal.defs _ _).mono (fun r h c => ⟨?_, (h c).2⟩)
      (Cert.ReferenceIdeal.Value.run (F := Ideal) m' ρ')
    have hr := Cert.FiniteArgs.real_of_pre _ _ _ _ _ _ (hpre c)
    rw [(h c).1, Cert.ReferenceIdeal.Read.val_main_v92_eq, (hagree c).1, (hagree c).2.1, (hagree c).2.2.1,
      (hagree c).2.2.2.1, (hagree c).2.2.2.2.1, (hagree c).2.2.2.2.2]
    exact (Cert.Bridge.out_eq _ _ _ _ _ _ hr.1 hr.2.1 hr.2.2.1 hr.2.2.2.1 hr.2.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
